-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512 : Shape := ⟨1, ![512]⟩
abbrev S2048 : Shape := ⟨1, ![2048]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512 : S_.BroadcastsInDim S512 (![] : Fin 0 → Fin S512.rank)
  reducesTo_S512_S_d0 : S512.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x512 .f32) (main_arg1 : FVec F S512 .f32) (main_arg2 : FVec F S512 .f32) (main_arg3 : FVec F S2048 .f32) (main_arg4 : FVec F S2048 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4x2048x512 : Shape := ⟨3, ![4, 2048, 512]⟩
abbrev S512 : Shape := ⟨1, ![512]⟩
abbrev S2048 : Shape := ⟨1, ![2048]⟩
abbrev S1x512 : Shape := ⟨2, ![1, 512]⟩
abbrev S1x2048 : Shape := ⟨2, ![1, 2048]⟩
abbrev S1x2048x512 : Shape := ⟨3, ![1, 2048, 512]⟩
abbrev S1x256x512 : Shape := ⟨3, ![1, 256, 512]⟩
abbrev S2048x512 : Shape := ⟨2, ![2048, 512]⟩
abbrev S2048x1 : Shape := ⟨2, ![2048, 1]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S512, .f32⟩
  | .hbm, ⟨3, _⟩ => ⟨S2048, .f32⟩
  | .hbm, ⟨4, _⟩ => ⟨S2048, .f32⟩
  | .hbm, ⟨5, _⟩ => ⟨S1x512, .f32⟩
  | .hbm, ⟨6, _⟩ => ⟨S1x512, .f32⟩
  | .hbm, ⟨7, _⟩ => ⟨S1x2048, .f32⟩
  | .hbm, ⟨8, _⟩ => ⟨S1x2048, .f32⟩
  | .hbm, ⟨9, _⟩ => ⟨S4x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512, .f32⟩
  | .local _ .vmem, ⟨3, _⟩ => ⟨S1x512, .f32⟩
  | .local _ .vmem, ⟨4, _⟩ => ⟨S1x2048, .f32⟩
  | .local _ .vmem, ⟨5, _⟩ => ⟨S1x2048, .f32⟩
  | .local _ .vmem, ⟨6, _⟩ => ⟨S1x256x512, .f32⟩
  | .local _ .vmem, ⟨7, _⟩ => ⟨S1x256x512, .f32⟩
  | .local _ .vmem, ⟨8, _⟩ => ⟨S2048x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S512_S1x512 : S512.ShapeCasts S1x512
  shapeCasts_S2048_S1x2048 : S2048.ShapeCasts S1x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  broadcasts_S2048x1_S2048x512 : S2048x1.Broadcasts S2048x512
  broadcasts_S1x512_S2048x512 : S1x512.Broadcasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  h_S256x512 : 0 < S256x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x512_S256 : S256x512.Reduces [1] S256
  broadcasts_S256x1_S256x512 : S256x1.Broadcasts S256x512
  broadcasts_S1x512_S256x512 : S1x512.Broadcasts S256x512
  shapeCasts_S256x512_S1x256x512 : S256x512.ShapeCasts S1x256x512
  inb_S1x256x512_S1x256x512_0_0_0 : ∀ a, (![0, 0, 0] : Fin 3 → Nat) a + S1x256x512.size a ≤ S1x256x512.size a
  h_S1x256x512 : 0 < S1x256x512.numel
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x512.size a ≤ S2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x512.size a ≤ S4x2048x512.size a
  hwx0_5 : ∀ i : grid0.Coords, EltTy.bits .f32 = 32 ∨ (Rect.block (s := S4x2048x512) S1x256x512.size (cc0_transform_5 i) (hinb0_5 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S512 : Shape := ⟨1, ![512]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x2048x2048 : Shape := ⟨3, ![4, 2048, 2048]⟩
abbrev S1x1x2048 : Shape := ⟨3, ![1, 1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S512, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x512, .f32⟩
  | .hbm, ⟨21, _⟩ => ⟨S4x2048x512, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x512, .f32⟩
  | .hbm, ⟨27, _⟩ => ⟨S4x2048x512, .f32⟩
  | .hbm, ⟨28, _⟩ => ⟨S1x1x512, .f32⟩
  | .hbm, ⟨29, _⟩ => ⟨S4x2048x512, .f32⟩
  | .hbm, ⟨30, _⟩ => ⟨S4x2048x512, .f32⟩
  | .hbm, ⟨31, _⟩ => ⟨S1x1x512, .f32⟩
  | .hbm, ⟨32, _⟩ => ⟨S4x2048x512, .f32⟩
  | .hbm, ⟨33, _⟩ => ⟨S4x2048x512, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x2048x1, .f32⟩
  | .hbm, ⟨56, _⟩ => ⟨S4x2048x2048, .f32⟩
  | .hbm, ⟨57, _⟩ => ⟨S4x2048x2048, .f32⟩
  | .hbm, ⟨58, _⟩ => ⟨S1x1x2048, .f32⟩
  | .hbm, ⟨59, _⟩ => ⟨S4x2048x2048, .f32⟩
  | .hbm, ⟨60, _⟩ => ⟨S4x2048x2048, .f32⟩
  | .hbm, ⟨61, _⟩ => ⟨S1x1x2048, .f32⟩
  | .hbm, ⟨62, _⟩ => ⟨S4x2048x2048, .f32⟩
  | .hbm, ⟨63, _⟩ => ⟨S4x2048x2048, .f32⟩
  | .hbm, ⟨64, _⟩ => ⟨S4x2048x512, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x512, .f32⟩
  | .hbm, ⟨72, _⟩ => ⟨S4x2048x512, .f32⟩
  | .hbm, ⟨73, _⟩ => ⟨S4x2048x512, .f32⟩
  | .hbm, ⟨74, _⟩ => ⟨S_, .f32⟩
  | .hbm, ⟨75, _⟩ => ⟨S4x2048, .f32⟩
  | .hbm, ⟨76, _⟩ => ⟨S4x2048x1, .f32⟩
  | .hbm, ⟨77, _⟩ => ⟨S_, .f32⟩
  | .hbm, ⟨78, _⟩ => ⟨S4x2048x1, .f32⟩
  | .hbm, ⟨79, _⟩ => ⟨S4x2048x1, .f32⟩
  | .hbm, ⟨80, _⟩ => ⟨S4x2048x512, .f32⟩
  | .hbm, ⟨81, _⟩ => ⟨S4x2048x512, .f32⟩
  | .hbm, ⟨82, _⟩ => ⟨S_, .f32⟩
  | .hbm, ⟨83, _⟩ => ⟨S4x2048x1, .f32⟩
  | .hbm, ⟨84, _⟩ => ⟨S4x2048x1, .f32⟩
  | .hbm, ⟨85, _⟩ => ⟨S4x2048x1, .f32⟩
  | .hbm, ⟨86, _⟩ => ⟨S4x2048x512, .f32⟩
  | .hbm, ⟨87, _⟩ => ⟨S4x2048x512, .f32⟩
  | .hbm, ⟨88, _⟩ => ⟨S1x1x512, .f32⟩
  | .hbm, ⟨89, _⟩ => ⟨S4x2048x512, .f32⟩
  | .hbm, ⟨90, _⟩ => ⟨S4x2048x512, .f32⟩
  | .hbm, ⟨91, _⟩ => ⟨S1x1x512, .f32⟩
  | .hbm, ⟨92, _⟩ => ⟨S4x2048x512, .f32⟩
  | .hbm, ⟨93, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]

class Facts₀ : Prop where
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  reducesTo_S4x2048x2048_S4x2048_d2 : S4x2048x2048.ReducesTo [2] S4x2048
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x512_S4x2048x512_S4x2048x2048_2_2_1_1_0_0_wf : DotDims.WF S4x2048x512 S4x2048x512 S4x2048x2048 [2] [2] [1] [1] [0] [0]
  dot_S4x2048x2048_S4x2048x512_S4x2048x512_2_1_1_2_0_0_wf : DotDims.WF S4x2048x2048 S4x2048x512 S4x2048x512 [2] [1] [1] [2] [0] [0]

variable [Facts₀]

def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf

class Facts : Prop extends Facts₀ where

variable [Facts]
-- ==== Proof.Spec.lean ====
/-
  The mathematics of the certificate, free of both programs: a row-wise layer normalisation in its two spellings, and the
  attention unit built from it — normalise the tokens of one batch, take all pairwise inner products of the normalised
  tokens (the score matrix), normalise each row of scores, multiply back by the normalised tokens, normalise once more.

  A row `f : ι → EReal` with weights `w`, `b`, a divisor `n` and an offset `ε`:
  * the two-pass form takes the mean `μ = (∑ f) / n`, the variance `v = (∑ (f - μ)²) / n`, and returns
    `((f k - μ) · rsqrt (v + ε)) · w k + b k`;
  * the one-pass form takes the variance as `(∑ f²) / n - μ²` and groups the product as `(f k - μ) · (rsqrt (v + ε) · w k) + b k`.
  On real rows with `n` the number of entries the two agree (Proof/LNAlgebra.lean); here are only the definitions,
  and the two whole-array functions, read at an array index by its three coordinates.
-/
import Idealize.ShloMosaic.PureOps.Ideal
import Idealize.ShloMosaic.Lib.ValueIdx

noncomputable section

namespace Attn

open Idealize.ShloMosaic Idealize.ShloMosaic.ValueIdx

/-- The three float literals both programs spell: the row lengths `512` and `2048`, and the variance offset. -/
abbrev c512 : EReal := Ideal.ofBits .f32 0x44000000#32
abbrev c2048 : EReal := Ideal.ofBits .f32 0x45000000#32
abbrev cEps : EReal := Ideal.ofBits .f32 0x3727C5AC#32

section Row
variable {ι : Type} [Fintype ι]

/-- The mean of a row: its sum divided by `n`. -/
def mean (n : EReal) (f : ι → EReal) : EReal := Ideal.div (∑ j, f j) n

/-- Layer normalisation, two-pass: the variance is the mean of the squared deviations. -/
def ln2 (n ε : EReal) (w b f : ι → EReal) (k : ι) : EReal :=
  (f k - mean n f) * Ideal.rsqrt (mean n (fun j => (f j - mean n f) * (f j - mean n f)) + ε) * w k + b k

/-- Layer normalisation, one-pass: the variance is the mean of the squares minus the squared mean, and the scale is
    multiplied into the weight first. -/
def ln1 (n ε : EReal) (w b f : ι → EReal) (k : ι) : EReal :=
  (f k - mean n f) * (Ideal.rsqrt (mean n (fun j => f j * f j) - mean n f * mean n f + ε) * w k) + b k

end Row

section Unit
variable {N D : ℕ}

/-- All pairwise inner products of the rows of `y`. -/
def score (y : Fin N → Fin D → EReal) (n m : Fin N) : EReal := ∑ d : Fin D, y n d * y m d

/-- A matrix of row weights times the rows of `y`. -/
def mix (a : Fin N → Fin N → EReal) (y : Fin N → Fin D → EReal) (n : Fin N) (d : Fin D) : EReal := ∑ m : Fin N, a n m * y m d

/-- From normalised tokens `y` to the result, one-pass normalisations: scores, their normalisation over each row,
    the product with `y`, the last normalisation. -/
def tile1 (nD nN ε : EReal) (y : Fin N → Fin D → EReal) (wt bt : Fin D → EReal) (ws bs : Fin N → EReal) (n : Fin N) (d : Fin D) : EReal :=
  ln1 nD ε wt bt (mix (fun n' => ln1 nN ε ws bs (score y n')) y n) d

/-- The same with two-pass normalisations. -/
def tile2 (nD nN ε : EReal) (y : Fin N → Fin D → EReal) (wt bt : Fin D → EReal) (ws bs : Fin N → EReal) (n : Fin N) (d : Fin D) : EReal :=
  ln2 nD ε wt bt (mix (fun n' => ln2 nN ε ws bs (score y n')) y n) d

/-- The unit on one batch `x`, one-pass normalisations throughout. -/
def attn1 (nD nN ε : EReal) (x : Fin N → Fin D → EReal) (wt bt : Fin D → EReal) (ws bs : Fin N → EReal) : Fin N → Fin D → EReal :=
  tile1 nD nN ε (fun n => ln1 nD ε wt bt (x n)) wt bt ws bs

/-- The unit on one batch `x`, two-pass normalisations throughout. -/
def attn2 (nD nN ε : EReal) (x : Fin N → Fin D → EReal) (wt bt : Fin D → EReal) (ws bs : Fin N → EReal) : Fin N → Fin D → EReal :=
  tile2 nD nN ε (fun n => ln2 nD ε wt bt (x n)) wt bt ws bs

end Unit

/-! ## The whole arrays -/

abbrev A3 : Shape := ⟨3, ![4, 2048, 512]⟩
abbrev A512 : Shape := ⟨1, ![512]⟩
abbrev A2048 : Shape := ⟨1, ![2048]⟩

/-- Batch `p` of a `[4, 2048, 512]` array as a matrix. -/
def batch (X : A3.Idx → EReal) (p : Fin 4) : Fin 2048 → Fin 512 → EReal := fun n d => X (ix3 p n d)
/-- A vector by its one coordinate. -/
def vec {n : ℕ} (W : (⟨1, ![n]⟩ : Shape).Idx → EReal) : Fin n → EReal := fun k => W (ix1 k)

/-- The result array, two-pass normalisations: entry `(p, n, d)` is the unit on batch `p` at `(n, d)`. -/
def G2 (X : A3.Idx → EReal) (W1 W2 : A512.Idx → EReal) (W3 W4 : A2048.Idx → EReal) : A3.Idx → EReal :=
  fun i => attn2 c512 c2048 cEps (batch X (i 0)) (vec W1) (vec W2) (vec W3) (vec W4) (i 1) (i 2)

/-- The result array, one-pass normalisations. -/
def G1 (X : A3.Idx → EReal) (W1 W2 : A512.Idx → EReal) (W3 W4 : A2048.Idx → EReal) : A3.Idx → EReal :=
  fun i => attn1 c512 c2048 cEps (batch X (i 0)) (vec W1) (vec W2) (vec W3) (vec W4) (i 1) (i 2)

end Attn

end
-- ==== Proof.Pieces.lean ====
/-
  What one run of the kernel body leaves behind, as pure terms of what it loaded.

  The body keeps the normalised tokens of the current batch in a scratch array. At the first query tile of a batch it
  computes them from the batch's rows (the first normalisation) and stores them; at every tile it then reads its own
  256 query rows and all 2048 rows back from the scratch, forms the scores, normalises each row of scores, multiplies by
  the normalised tokens, normalises once more and stores the tile. So:
  * at a batch's first tile the scratch ends holding the first normalisation of the batch's block;
  * at a batch's first tile the output block is the tile computed FROM that freshly stored scratch;
  * at any other tile the output block is the tile computed from the scratch as the tile before left it.
-/
import proofs.«145216_j2413771620560_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Attn.Ker

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- An array read back after ONE store of `w` through the whole of it holds `w`, whatever it held before. -/
theorem read_store_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- The 256 rows of the scratch contents `Y` that the query tile at grid point `i` reads: rows `256 · i₁` onwards. -/
abbrev qrows (i : grid0.Coords) (Y : Vec F S2048x512 .bf16) : Vec F S256x512 .bf16 :=
  View.ld Y (Rect.unit (s := S2048x512) (k0_off1 i) S256x512.size (k0_off1_inb i))

/-- The output tile as a function of the scratch contents `Y` it reads: scores of the tile's rows against all rows,
    their normalisation, the product with `Y`, the last normalisation. -/
abbrev tileOf (i : grid0.Coords) (Y : Vec F S2048x512 .bf16) (x1 x2 : Vec F S1x512 .f32) (x3 x4 : Vec F S1x2048 .f32) :
    Vec F S1x256x512 .f32 :=
  k0_pay1 (k0_pay3 (qrows i Y) Y x3 x4) x1 x2

/-- First tile of a batch: the scratch ends at the first normalisation of the batch's block. -/
theorem scratch_A (c : Dev nD) (i : grid0.Coords) (arg2 : Memref sig .tc .vmem S1x2048x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x256x512 .f32) (harg7 : arg7.IsWhole) (arg8 : Memref sig .tc .vmem S2048x512 .bf16) (harg8 : arg8.IsWhole) (hc0 : cond0_0 i) (x0 : Vec F S1x2048x512 .f32) (x1 : Vec F S1x512 .f32) (x2 : Vec F S1x512 .f32) (x3 : Vec F S1x2048 .f32) (x4 : Vec F S1x2048 .f32) :
    sout0_A_0 c i arg2 harg2 arg3 harg3 arg4 harg4 arg5 harg5 arg6 harg6 arg7 harg7 arg8 harg8 hc0 x0 x1 x2 x3 x4 = k0_pay2 x0 x1 x2 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz2]
  simp only [View.readAt_eq_ld, harg2.read_unread, harg3.read_unread, harg4.read_unread,
    View.ld_unit_zero (S := S1x2048x512) hz3, View.ld_unit_zero (S := S1x512) hz2]

/-- First tile of a batch: the output block is the tile of the freshly stored scratch. -/
theorem out_A (c : Dev nD) (i : grid0.Coords) (arg2 : Memref sig .tc .vmem S1x2048x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x256x512 .f32) (harg7 : arg7.IsWhole) (arg8 : Memref sig .tc .vmem S2048x512 .bf16) (harg8 : arg8.IsWhole) (hc0 : cond0_0 i) (x0 : Vec F S1x2048x512 .f32) (x1 : Vec F S1x512 .f32) (x2 : Vec F S1x512 .f32) (x3 : Vec F S1x2048 .f32) (x4 : Vec F S1x2048 .f32) :
    out0_A_5 c i arg2 harg2 arg3 harg3 arg4 harg4 arg5 harg5 arg6 harg6 arg7 harg7 arg8 harg8 hc0 x0 x1 x2 x3 x4 = tileOf i (k0_pay2 x0 x1 x2) x1 x2 x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero (S := S1x256x512) hz3]
  rw [View.readCov_unit_zero (S := S2048x512) _ hz2]
  simp only [View.readAt_eq_ld, read_store_whole (S := S2048x512) _ _ hz2, harg2.read_unread, harg3.read_unread, harg4.read_unread, harg5.read_unread, harg6.read_unread,
    View.ld_unit_zero (S := S1x2048x512) hz3, View.ld_unit_zero (S := S1x512) hz2, View.ld_unit_zero (S := S1x2048) hz2]
  rfl

/-- Any other tile: the output block is the tile of the scratch as it was found. -/
theorem out_B (c : Dev nD) (i : grid0.Coords) (arg2 : Memref sig .tc .vmem S1x2048x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x256x512 .f32) (harg7 : arg7.IsWhole) (arg8 : Memref sig .tc .vmem S2048x512 .bf16) (harg8 : arg8.IsWhole) (hc0 : ¬cond0_0 i) (x0 : Vec F S1x2048x512 .f32) (x1 : Vec F S1x512 .f32) (x2 : Vec F S1x512 .f32) (x3 : Vec F S1x2048 .f32) (x4 : Vec F S1x2048 .f32) (xs0 : Vec F S2048x512 .bf16) :
    out0_B_5 c i arg2 harg2 arg3 harg3 arg4 harg4 arg5 harg5 arg6 harg6 arg7 harg7 arg8 harg8 hc0 x0 x1 x2 x3 x4 xs0 = tileOf i xs0 x1 x2 x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero (S := S1x256x512) hz3]
  simp only [View.readAt_eq_ld, harg3.read_unread, harg4.read_unread, harg5.read_unread, harg6.read_unread, harg8.read_unread,
    View.ld_unit_zero (S := S1x512) hz2, View.ld_unit_zero (S := S1x2048) hz2, View.ld_unit_zero (S := S2048x512) hz2]
  rfl

end Attn.Ker

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LNBlock.lean ====
/-
  One layer normalisation of a block of rows, in the spelling the kernel's body uses three times, read at an entry.

  For an `a × b` block `X` the body sums each row over its lanes, keeps the sums as an `a × 1` column, and divides the
  column by a splat constant: the row means. It does the same with the block of squares, subtracts the squared means,
  adds the offset and takes the reciprocal square root: one scale per row. Each entry is then
  `(X p q - mean p) · (scale p · w q) + bias q`, the weight and bias rows broadcast down the block and the two columns
  broadcast across it. At entry `(p, q)` that is the one-pass normalisation `Attn.ln1` of row `p`, at `q`.
-/
import proofs.«145216_j2413771620560_2_alg».proof.Proof.Spec
import proofs.«145216_j2413771620560_2_alg».proof.Proof.LibKeepdims
import Idealize.ShloMosaic.PureOps.Ideal.Laws
import Idealize.ShloMosaic.Lib.ValueLayout

noncomputable section

namespace Attn.Ker

open Idealize.ShloMosaic Idealize.ShloMosaic.ValueIdx Attn

variable {a b : ℕ}

/-- The lane sum of each row, kept as a column, over a splat constant: the row means in the body's spelling. -/
def rowMean (cn : BitVec 32) (hred : (⟨2, ![a, b]⟩ : Shape).Reduces [1] ⟨1, ![a]⟩) (hφ : FKind.Formats .f32) (hacc : (0x00000000#32 : BitVec 32) = FKind.add.neutral .f32 hφ)
    (hcast : (⟨1, ![a]⟩ : Shape).ShapeCasts ⟨2, ![a, 1]⟩) (Y : FVec Ideal ⟨2, ![a, b]⟩ .f32) : FVec Ideal ⟨2, ![a, 1]⟩ .f32 :=
  divf (shapeCast ⟨2, ![a, 1]⟩ (multiReduction .add [1] ⟨1, ![a]⟩ Y 0x00000000#32 hred hφ hacc) hcast)
    (broadcast ⟨2, ![a, 1]⟩ (Scalar.ofBits .f32 cn))

/-- Row `p`'s entry of that column is the mean of row `p`: the sum of its `b` entries over the constant. -/
theorem rowMean_apply (cn : BitVec 32) (hred : (⟨2, ![a, b]⟩ : Shape).Reduces [1] ⟨1, ![a]⟩) (hφ : FKind.Formats .f32) (hacc : (0x00000000#32 : BitVec 32) = FKind.add.neutral .f32 hφ)
    (hcast : (⟨1, ![a]⟩ : Shape).ShapeCasts ⟨2, ![a, 1]⟩) (Y : FVec Ideal ⟨2, ![a, b]⟩ .f32) (p : Fin a) (u : Fin 1) :
    rowMean cn hred hφ hacc hcast Y (ix2 p u) = mean (Ideal.ofBits .f32 cn) (fun k : Fin b => Y (ix2 p k)) := by
  unfold rowMean
  rw [divf_apply, shapeCast_a_a1_apply, Ideal.multiReduction_add_single, broadcast_apply]
  have hl : ∀ k : Fin b, hred.lift (ix1 p) k = ix2 p k := fun k => funext fun c =>
    match c with
    | ⟨0, _⟩ => Fin.ext rfl
    | ⟨1, _⟩ => Fin.ext rfl
  show Ideal.div (∑ k : Fin b, Y (hred.lift (ix1 p) k)) (Ideal.ofBits .f32 cn) = _
  simp only [hl]
  rfl

/-- The body's normalisation of a block: means, one-pass variance, offset, reciprocal square root, weight and bias. -/
def lnBlock (cn cε : BitVec 32) (hred : (⟨2, ![a, b]⟩ : Shape).Reduces [1] ⟨1, ![a]⟩) (hφ : FKind.Formats .f32) (hacc : (0x00000000#32 : BitVec 32) = FKind.add.neutral .f32 hφ)
    (hcast : (⟨1, ![a]⟩ : Shape).ShapeCasts ⟨2, ![a, 1]⟩) (hb1 : (⟨2, ![a, 1]⟩ : Shape).Broadcasts ⟨2, ![a, b]⟩)
    (hb2 : (⟨2, ![1, b]⟩ : Shape).Broadcasts ⟨2, ![a, b]⟩) (X : FVec Ideal ⟨2, ![a, b]⟩ .f32) (w1 w2 : FVec Ideal ⟨2, ![1, b]⟩ .f32) :
    FVec Ideal ⟨2, ![a, b]⟩ .f32 :=
  addf
    (mulf (subf X (broadcastTo ⟨2, ![a, b]⟩ (rowMean cn hred hφ hacc hcast X) hb1))
      (mulf
        (broadcastTo ⟨2, ![a, b]⟩
          (rsqrt (addf (subf (rowMean cn hred hφ hacc hcast (mulf X X)) (mulf (rowMean cn hred hφ hacc hcast X) (rowMean cn hred hφ hacc hcast X)))
            (broadcast ⟨2, ![a, 1]⟩ (Scalar.ofBits .f32 cε)))) hb1)
        (broadcastTo ⟨2, ![a, b]⟩ w1 hb2)))
    (broadcastTo ⟨2, ![a, b]⟩ w2 hb2)

/-- Entry `(p, q)` of the normalised block is the one-pass normalisation of row `p` at `q`. -/
theorem lnBlock_apply (cn cε : BitVec 32) (hred : (⟨2, ![a, b]⟩ : Shape).Reduces [1] ⟨1, ![a]⟩) (hφ : FKind.Formats .f32) (hacc : (0x00000000#32 : BitVec 32) = FKind.add.neutral .f32 hφ)
    (hcast : (⟨1, ![a]⟩ : Shape).ShapeCasts ⟨2, ![a, 1]⟩) (hb1 : (⟨2, ![a, 1]⟩ : Shape).Broadcasts ⟨2, ![a, b]⟩)
    (hb2 : (⟨2, ![1, b]⟩ : Shape).Broadcasts ⟨2, ![a, b]⟩) (X : FVec Ideal ⟨2, ![a, b]⟩ .f32) (w1 w2 : FVec Ideal ⟨2, ![1, b]⟩ .f32)
    (p : Fin a) (q : Fin b) :
    lnBlock cn cε hred hφ hacc hcast hb1 hb2 X w1 w2 (ix2 p q)
      = ln1 (Ideal.ofBits .f32 cn) (Ideal.ofBits .f32 cε) (fun k : Fin b => w1 (ix2 (0 : Fin 1) k)) (fun k : Fin b => w2 (ix2 (0 : Fin 1) k))
          (fun k : Fin b => X (ix2 p k)) q := by
  unfold lnBlock
  rw [addf_apply, mulf_apply, subf_apply, mulf_apply, broadcastTo_a1_ab_apply, broadcastTo_a1_ab_apply,
    broadcastTo_1b_ab_apply, broadcastTo_1b_ab_apply]
  show (X (ix2 p q) - rowMean cn hred hφ hacc hcast X (ix2 p 0))
      * (Ideal.rsqrt ((addf (subf (rowMean cn hred hφ hacc hcast (mulf X X)) (mulf (rowMean cn hred hφ hacc hcast X) (rowMean cn hred hφ hacc hcast X)))
            (broadcast ⟨2, ![a, 1]⟩ (Scalar.ofBits .f32 cε))) (ix2 p 0)) * w1 (ix2 0 q)) + w2 (ix2 0 q) = _
  rw [addf_apply, subf_apply, mulf_apply, broadcast_apply, rowMean_apply, rowMean_apply]
  rfl

end Attn.Ker

end
-- ==== Proof.MatRead.lean ====
/-
  The two matrix products of the kernel body, read at one entry, at the extended-real values.

  Each product contracts ONE axis, so its contraction index is a single coordinate: the sum over the contraction index set
  is re-indexed to a sum over `Fin 512` (resp. `Fin 2048`), and the two operand indices are identified coordinate by
  coordinate. The first product contracts axis 1 of both operands (a matrix times a transposed matrix: entry `(r, m)` is the
  inner product of row `r` of the left with row `m` of the right); the second contracts axis 1 of the left with axis 0 of
  the right (the plain product). The accumulator is the zero splat, so the entry is just the sum.
-/
import proofs.«145216_j2413771620560_2_alg».proof.Proof.Gen.KernelIdeal
import Idealize.ShloMosaic.PureOps.Ideal.Laws
import Idealize.ShloMosaic.Lib.ValueIdx

noncomputable section

namespace Attn.Ker

open Cert.KernelIdeal Idealize.ShloMosaic Idealize.ShloMosaic.ValueIdx

variable [Facts₀]

/-- Entry `(r, m)` of the product contracting axis 1 of both operands: the inner product of row `r` of `A` and row `m`
    of `B`. -/
theorem mm_scores (A : FVec Ideal S256x512 .bf16) (B : FVec Ideal S2048x512 .bf16) (r : Fin 256) (m : Fin 2048) :
    matmul dot_S256x512_S2048x512_S256x2048_1_1_0_0_n_n none A B (constant S256x2048 .f32 0x00000000#32) (ix2 r m)
      = ∑ k : Fin 512, A (ix2 r k) * B (ix2 m k) := by
  show FloatOps.matmul _ none A B _ (ix2 r m) = _
  rw [Ideal.matmul_constant_zero_apply,
    ← Equiv.sum_comp (contrEquiv1 dot_S256x512_S2048x512_S256x2048_1_1_0_0_n_n 512 rfl rfl).symm]
  refine Finset.sum_congr rfl fun c _ => ?_
  have c2 := contrEquiv1_symm_val dot_S256x512_S2048x512_S256x2048_1_1_0_0_n_n 512 rfl rfl c
  have l2 : dot_S256x512_S2048x512_S256x2048_1_1_0_0_n_n.lhsIdx (ix2 r m)
      ((contrEquiv1 _ 512 rfl rfl).symm c) = ix2 r c := by
    funext ax; apply Fin.ext
    match ax with
    | ⟨0, _⟩ => simp [DotDims.lhsIdx, dot_S256x512_S2048x512_S256x2048_1_1_0_0_n_n]; rfl
    | ⟨1, _⟩ => simp [DotDims.lhsIdx, dot_S256x512_S2048x512_S256x2048_1_1_0_0_n_n]; exact c2
  have r2 : dot_S256x512_S2048x512_S256x2048_1_1_0_0_n_n.rhsIdx (ix2 r m)
      ((contrEquiv1 _ 512 rfl rfl).symm c) = ix2 m c := by
    funext ax; apply Fin.ext
    match ax with
    | ⟨0, _⟩ => simp [DotDims.rhsIdx, dot_S256x512_S2048x512_S256x2048_1_1_0_0_n_n]; rfl
    | ⟨1, _⟩ => simp [DotDims.rhsIdx, dot_S256x512_S2048x512_S256x2048_1_1_0_0_n_n]; exact c2
  rw [l2, r2]

/-- Entry `(r, d)` of the plain product (axis 1 of the left against axis 0 of the right): the sum over `m` of
    `A (r, m) * B (m, d)`. -/
theorem mm_mix (A : FVec Ideal S256x2048 .bf16) (B : FVec Ideal S2048x512 .bf16) (r : Fin 256) (d : Fin 512) :
    matmul dot_S256x2048_S2048x512_S256x512_1_0_0_1_n_n none A B (constant S256x512 .f32 0x00000000#32) (ix2 r d)
      = ∑ m : Fin 2048, A (ix2 r m) * B (ix2 m d) := by
  show FloatOps.matmul _ none A B _ (ix2 r d) = _
  rw [Ideal.matmul_constant_zero_apply,
    ← Equiv.sum_comp (contrEquiv1 dot_S256x2048_S2048x512_S256x512_1_0_0_1_n_n 2048 rfl rfl).symm]
  refine Finset.sum_congr rfl fun c _ => ?_
  have c2 := contrEquiv1_symm_val dot_S256x2048_S2048x512_S256x512_1_0_0_1_n_n 2048 rfl rfl c
  have l2 : dot_S256x2048_S2048x512_S256x512_1_0_0_1_n_n.lhsIdx (ix2 r d)
      ((contrEquiv1 _ 2048 rfl rfl).symm c) = ix2 r c := by
    funext ax; apply Fin.ext
    match ax with
    | ⟨0, _⟩ => simp [DotDims.lhsIdx, dot_S256x2048_S2048x512_S256x512_1_0_0_1_n_n]; rfl
    | ⟨1, _⟩ => simp [DotDims.lhsIdx, dot_S256x2048_S2048x512_S256x512_1_0_0_1_n_n]; exact c2
  have r2 : dot_S256x2048_S2048x512_S256x512_1_0_0_1_n_n.rhsIdx (ix2 r d)
      ((contrEquiv1 _ 2048 rfl rfl).symm c) = ix2 c d := by
    funext ax; apply Fin.ext
    match ax with
    | ⟨0, _⟩ => simp [DotDims.rhsIdx, dot_S256x2048_S2048x512_S256x512_1_0_0_1_n_n]; exact c2
    | ⟨1, _⟩ => simp [DotDims.rhsIdx, dot_S256x2048_S2048x512_S256x512_1_0_0_1_n_n]; rfl
  rw [l2, r2]

end Attn.Ker

end
-- ==== Proof.PayRead.lean ====
/-
  The three pure terms of the kernel body, each read at an entry.

  * The term the body stores to the scratch at a batch's first tile is the one-pass normalisation of each of the batch's
    2048 rows with the token weight and bias.
  * The middle term takes the tile's 256 query rows `Q` and all 2048 rows `Y`: the scores `Q · Yᵀ`, the one-pass
    normalisation of each row of scores with the score weight and bias, and the product of that with `Y`.
  * The term it stores to the output tile is the one-pass normalisation of each row of the middle term, again with the
    token weight and bias.
  (A change of float format is the identity on the extended reals, so the two roundings to bf16 vanish.)
-/
import proofs.«145216_j2413771620560_2_alg».proof.Proof.Gen.KernelIdeal.Skeleton
import proofs.«145216_j2413771620560_2_alg».proof.Proof.LNBlock
import proofs.«145216_j2413771620560_2_alg».proof.Proof.MatRead
import Idealize.ShloMosaic.Lib.Pipeline.Value
import Idealize.ShloMosaic.Lib.ValueLayout

noncomputable section

namespace Attn.Ker

open Cert.KernelIdeal Cert.KernelIdeal.Gen Idealize.ShloMosaic Idealize.ShloMosaic.ValueIdx Attn

/-- Entry `(n, d)` of the scratch term: row `n` of the batch's block, normalised, at `d`. -/
theorem pay2_apply (x0 : Vec Ideal S1x2048x512 .f32) (x1 x2 : Vec Ideal S1x512 .f32) (n : Fin 2048) (d : Fin 512) :
    k0_pay2 x0 x1 x2 (ix2 n d)
      = ln1 c512 cEps (fun k : Fin 512 => x1 (ix2 (0 : Fin 1) k)) (fun k : Fin 512 => x2 (ix2 (0 : Fin 1) k))
          (fun k : Fin 512 => x0 (ix3 (0 : Fin 1) n k)) d := by
  unfold k0_pay2
  dsimp only
  rw [shapeCast_self]
  refine (lnBlock_apply (a := 2048) (b := 512) 0x44000000#32 0x3727C5AC#32 _ _ _ _ _ _ (shapeCast S2048x512 x0 _) (shapeCast S1x512 x1 _)
    (shapeCast S1x512 x2 _) n d).trans ?_
  simp only [shapeCast_self, shapeCast_1ab_ab_apply]

/-- Entry `(·, r, d)` of the output term: row `r` of the middle term, normalised, at `d`. -/
theorem pay1_apply (O : FVec Ideal S256x512 .f32) (x1 x2 : Vec Ideal S1x512 .f32) (u : Fin 1) (r : Fin 256) (d : Fin 512) :
    k0_pay1 O x1 x2 (ix3 u r d)
      = ln1 c512 cEps (fun k : Fin 512 => x1 (ix2 (0 : Fin 1) k)) (fun k : Fin 512 => x2 (ix2 (0 : Fin 1) k))
          (fun k : Fin 512 => O (ix2 r k)) d := by
  unfold k0_pay1
  dsimp only
  rw [shapeCast_ab_1ab_apply]
  refine (lnBlock_apply (a := 256) (b := 512) 0x44000000#32 0x3727C5AC#32 _ _ _ _ _ _ O (shapeCast S1x512 x1 _) (shapeCast S1x512 x2 _) r d).trans ?_
  simp only [shapeCast_self]

/-- Entry `(r, d)` of the middle term: the normalised scores of query row `r` against all rows, times column `d` of `Y`. -/
theorem pay3_apply (Q : Vec Ideal S256x512 .bf16) (Y : Vec Ideal S2048x512 .bf16) (x3 x4 : Vec Ideal S1x2048 .f32)
    (r : Fin 256) (d : Fin 512) :
    k0_pay3 Q Y x3 x4 (ix2 r d)
      = ∑ m : Fin 2048, ln1 c2048 cEps (fun j : Fin 2048 => x3 (ix2 (0 : Fin 1) j)) (fun j : Fin 2048 => x4 (ix2 (0 : Fin 1) j))
          (fun m' : Fin 2048 => ∑ k : Fin 512, Q (ix2 r k) * Y (ix2 m' k)) m * Y (ix2 m d) := by
  unfold k0_pay3
  dsimp only
  rw [mm_mix]
  refine Finset.sum_congr rfl fun m _ => ?_
  congr 1
  refine (lnBlock_apply (a := 256) (b := 2048) 0x45000000#32 0x3727C5AC#32 _ _ _ _ _ _
      (matmul dot_S256x512_S2048x512_S256x2048_1_1_0_0_n_n none Q Y (constant S256x2048 .f32 0x00000000#32))
      (shapeCast S1x2048 x3 _) (shapeCast S1x2048 x4 _) r m).trans ?_
  simp only [shapeCast_self, mm_scores]

end Attn.Ker

end
-- ==== Proof.Blocks.lean ====
/-
  Where the kernel's windows sit in their arrays, at a symbolic grid point.

  The grid has 32 points; point `t` is batch `t / 8`, query tile `t % 8`. Window 0 is the whole `[1, 2048, 512]` block
  of batch `t / 8` of the tokens; windows 1 to 4 are the whole weight and bias rows, the `[512]` and `[2048]` arguments
  reshaped to one row before the region; output window 5 is the `[1, 256, 512]` block of rows `256 · (t % 8)` onwards of
  batch `t / 8`. A block's coordinate in its array is always block index × block extent + the coordinate inside the
  block; the block indices are decided once over the 32 points, and the rest is linear arithmetic.
-/
import proofs.«145216_j2413771620560_2_alg».proof.Proof.Gen.KernelIdeal.Frame
import proofs.«145216_j2413771620560_2_alg».proof.Proof.Pieces
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Attn.Ker

open Cert.KernelIdeal Cert.KernelIdeal.Gen Idealize.ShloMosaic Idealize.ShloMosaic.TcCoe Idealize.SL.Sem
open Idealize.ShloMosaic.ValueIdx

variable {F : FTy → Type} [FloatOps F] (m : (ℓ : Loc nD τ sig) → Buf (Elt F) ℓ)

/-! ## The block indices, decided over the grid -/

/-- The printed index maps at point `t`: window 0 sits at batch `t / 8`; windows 1 to 4 at the origin; window 5 at
    batch `t / 8`, tile `t % 8`; and the query rows the body loads from the scratch start at row `256 · (t % 8)`. -/
theorem idx_facts : ∀ t : Fin cfg0.N,
    (win0_0.index t (0 : Fin 3) = t.val / 8 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 8 ∧ win0_5.index t (1 : Fin 3) = t.val % 8 ∧ win0_5.index t (2 : Fin 3) = 0)
    ∧ (k0_off1 (grid0.coords t) (0 : Fin 2) = 256 * (t.val % 8) ∧ k0_off1 (grid0.coords t) (1 : Fin 2) = 0) :=
  (by decide +kernel : ∀ t : Fin grid0.N, _)

/-- The query rows' offsets at point `t`, as one vector. -/
theorem off1_eq (t : Fin cfg0.N) : k0_off1 (grid0.coords t) = ![256 * (t.val % 8), 0] := by
  obtain ⟨-, -, -, -, -, -, e0, e1⟩ := idx_facts t
  funext a
  match a with
  | ⟨0, _⟩ => exact e0
  | ⟨1, _⟩ => exact e1

/-! ## The host prefix: the reshaped rows -/

/-- The region finds `main_v0` holding the `[512]` argument 1 reshaped to one row. -/
theorem V_main_v0 (c : Dev nD) :
    (V m c main_v0 : S1x512.Idx → Elt F .f32) = shapeCast S1x512 (m ((c : Thread nD τ).loc main_arg1)) shapeCasts_S512_S1x512 := by
  dsimp only [Gen.V, Gen.hostOps0]; after_results; rfl
/-- The region finds `main_v1` holding the `[512]` argument 2 reshaped to one row. -/
theorem V_main_v1 (c : Dev nD) :
    (V m c main_v1 : S1x512.Idx → Elt F .f32) = shapeCast S1x512 (m ((c : Thread nD τ).loc main_arg2)) shapeCasts_S512_S1x512 := by
  dsimp only [Gen.V, Gen.hostOps0]; after_results; rfl
/-- The region finds `main_v2` holding the `[2048]` argument 3 reshaped to one row. -/
theorem V_main_v2 (c : Dev nD) :
    (V m c main_v2 : S1x2048.Idx → Elt F .f32) = shapeCast S1x2048 (m ((c : Thread nD τ).loc main_arg3)) shapeCasts_S2048_S1x2048 := by
  dsimp only [Gen.V, Gen.hostOps0]; after_results; rfl
/-- The region finds `main_v3` holding the `[2048]` argument 4 reshaped to one row. -/
theorem V_main_v3 (c : Dev nD) :
    (V m c main_v3 : S1x2048.Idx → Elt F .f32) = shapeCast S1x2048 (m ((c : Thread nD τ).loc main_arg4)) shapeCasts_S2048_S1x2048 := by
  dsimp only [Gen.V, Gen.hostOps0]; after_results; rfl

/-! ## The input windows' blocks, read at coordinates -/

/-- A grid point is below 32. -/
theorem t_lt (t : Fin cfg0.N) : t.val < 32 := lt_of_lt_of_eq t.isLt N_0

/-- Window 0's block at point `t` is batch `t / 8` of the tokens. -/
theorem iblk0_apply (c : Dev nD) (t : Fin cfg0.N) (u : Fin 1) (n : Fin 2048) (d : Fin 512) :
    (iblk m c 0 t : Vec F S1x2048x512 .f32) (ix3 u n d)
      = m ((c : Thread nD τ).loc main_arg0) (ix3 (⟨t.val / 8, by have := t_lt t; omega⟩ : Fin 4) n d) := by
  obtain ⟨⟨e0, e1, e2⟩, -⟩ := idx_facts t
  unfold iblk
  rw [View.read_apply]
  show V m c main_arg0 _ = _
  rw [V_main_arg0]
  congr 1
  funext a; apply Fin.ext
  match a with
  | ⟨0, _⟩ => show win0_0.index t (0 : Fin 3) * 1 + 1 * u.val = t.val / 8; have := u.isLt; omega
  | ⟨1, _⟩ => show win0_0.index t (1 : Fin 3) * 2048 + 1 * n.val = n.val; omega
  | ⟨2, _⟩ => show win0_0.index t (2 : Fin 3) * 512 + 1 * d.val = d.val; omega

/-- Window 1's block at any point is the whole of argument 1, as one row. -/
theorem iblk1_apply (c : Dev nD) (t : Fin cfg0.N) (u : Fin 1) (k : Fin 512) :
    (iblk m c 1 t : Vec F S1x512 .f32) (ix2 u k) = m ((c : Thread nD τ).loc main_arg1) (ix1 k) := by
  obtain ⟨-, ⟨e0, e1⟩, -⟩ := idx_facts t
  unfold iblk
  rw [View.read_apply]
  show V m c main_v0 _ = _
  have hidx : ((cfg0.win 1).blk t).view.emb (ix2 u k : S1x512.Idx) = (ix2 u k : S1x512.Idx) := by
    funext a; apply Fin.ext
    match a with
    | ⟨0, _⟩ => show win0_1.index t (0 : Fin 2) * 1 + 1 * u.val = u.val; omega
    | ⟨1, _⟩ => show win0_1.index t (1 : Fin 2) * 512 + 1 * k.val = k.val; omega
  rw [hidx, V_main_v0, shapeCast_a_1a_apply]

/-- Window 2's block at any point is the whole of argument 2, as one row. -/
theorem iblk2_apply (c : Dev nD) (t : Fin cfg0.N) (u : Fin 1) (k : Fin 512) :
    (iblk m c 2 t : Vec F S1x512 .f32) (ix2 u k) = m ((c : Thread nD τ).loc main_arg2) (ix1 k) := by
  obtain ⟨-, -, ⟨e0, e1⟩, -⟩ := idx_facts t
  unfold iblk
  rw [View.read_apply]
  show V m c main_v1 _ = _
  have hidx : ((cfg0.win 2).blk t).view.emb (ix2 u k : S1x512.Idx) = (ix2 u k : S1x512.Idx) := by
    funext a; apply Fin.ext
    match a with
    | ⟨0, _⟩ => show win0_2.index t (0 : Fin 2) * 1 + 1 * u.val = u.val; omega
    | ⟨1, _⟩ => show win0_2.index t (1 : Fin 2) * 512 + 1 * k.val = k.val; omega
  rw [hidx, V_main_v1, shapeCast_a_1a_apply]

/-- Window 3's block at any point is the whole of argument 3, as one row. -/
theorem iblk3_apply (c : Dev nD) (t : Fin cfg0.N) (u : Fin 1) (k : Fin 2048) :
    (iblk m c 3 t : Vec F S1x2048 .f32) (ix2 u k) = m ((c : Thread nD τ).loc main_arg3) (ix1 k) := by
  obtain ⟨-, -, -, ⟨e0, e1⟩, -⟩ := idx_facts t
  unfold iblk
  rw [View.read_apply]
  show V m c main_v2 _ = _
  have hidx : ((cfg0.win 3).blk t).view.emb (ix2 u k : S1x2048.Idx) = (ix2 u k : S1x2048.Idx) := by
    funext a; apply Fin.ext
    match a with
    | ⟨0, _⟩ => show win0_3.index t (0 : Fin 2) * 1 + 1 * u.val = u.val; omega
    | ⟨1, _⟩ => show win0_3.index t (1 : Fin 2) * 2048 + 1 * k.val = k.val; omega
  rw [hidx, V_main_v2, shapeCast_a_1a_apply]

/-- Window 4's block at any point is the whole of argument 4, as one row. -/
theorem iblk4_apply (c : Dev nD) (t : Fin cfg0.N) (u : Fin 1) (k : Fin 2048) :
    (iblk m c 4 t : Vec F S1x2048 .f32) (ix2 u k) = m ((c : Thread nD τ).loc main_arg4) (ix1 k) := by
  obtain ⟨-, -, -, -, ⟨e0, e1⟩, -⟩ := idx_facts t
  unfold iblk
  rw [View.read_apply]
  show V m c main_v3 _ = _
  have hidx : ((cfg0.win 4).blk t).view.emb (ix2 u k : S1x2048.Idx) = (ix2 u k : S1x2048.Idx) := by
    funext a; apply Fin.ext
    match a with
    | ⟨0, _⟩ => show win0_4.index t (0 : Fin 2) * 1 + 1 * u.val = u.val; omega
    | ⟨1, _⟩ => show win0_4.index t (1 : Fin 2) * 2048 + 1 * k.val = k.val; omega
  rw [hidx, V_main_v3, shapeCast_a_1a_apply]

/-! ## Output window 5: where its block sits, and that the blocks cover the result -/

/-- Window 5's block at point `t` is rows `256 · (t % 8)` onwards of batch `t / 8` of the result. -/
theorem emb5_apply (t : Fin cfg0.N) (u : Fin 1) (r : Fin 256) (d : Fin 512) :
    ((cfg0.win 5).blk t).view.emb (ix3 u r d : S1x256x512.Idx)
      = (ix3 (⟨t.val / 8, by have := t_lt t; omega⟩ : Fin 4)
          (⟨256 * (t.val % 8) + r.val, by have := r.isLt; omega⟩ : Fin 2048) d : S4x2048x512.Idx) := by
  obtain ⟨-, -, -, -, -, ⟨e0, e1, e2⟩, -⟩ := idx_facts t
  funext a; apply Fin.ext
  match a with
  | ⟨0, _⟩ => show win0_5.index t (0 : Fin 3) * 1 + 1 * u.val = t.val / 8; have := u.isLt; omega
  | ⟨1, _⟩ => show win0_5.index t (1 : Fin 3) * 256 + 1 * r.val = 256 * (t.val % 8) + r.val; omega
  | ⟨2, _⟩ => show win0_5.index t (2 : Fin 3) * 512 + 1 * d.val = d.val; omega

/-- An index of the result is in point `t`'s block iff each coordinate is in the block's range on its axis. -/
theorem mem_blk5 (t : Fin cfg0.N) (i : S4x2048x512.Idx) :
    i ∈ ((cfg0.win 5).blk t).view.set ↔ ∀ a : Fin 3, win0_5.index t a * S1x256x512.size a ≤ (i a).val
      ∧ (i a).val < win0_5.index t a * S1x256x512.size a + S1x256x512.size a := by
  show i ∈ ((View.whole main_v4).slice (win0_5.rect t)).set ↔ _
  rw [View.set_slice_whole, Rect.mem_set_unit]
  exact Iff.rfl

/-- Every index of the result is in the block of a point that writes back: index `(b, n, d)` is in the block of
    point `8 · b + n / 256`. -/
theorem cover5 (i : S4x2048x512.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 512 := (i 2).isLt
  obtain ⟨t, tv⟩ : ∃ t : Fin cfg0.N, t.val = 8 * (i 0).val + (i 1).val / 256 :=
    ⟨⟨8 * (i 0).val + (i 1).val / 256, lt_of_lt_of_eq (by omega : 8 * (i 0).val + (i 1).val / 256 < 32) N_0.symm⟩, rfl⟩
  obtain ⟨-, -, -, -, -, ⟨e0, e1, e2⟩, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 512 ≤ (i 2).val ∧ (i 2).val < win0_5.index t (2 : Fin 3) * 512 + 512; omega

/-! ## The query rows -/

/-- The query tile at point `t` reads rows `256 · (t % 8)` onwards of the scratch contents. -/
theorem qrows_apply (t : Fin cfg0.N) (Y : Vec F S2048x512 .bf16) (r : Fin 256) (k : Fin 512) :
    qrows (grid0.coords t) Y (ix2 r k : S256x512.Idx)
      = Y (ix2 (⟨256 * (t.val % 8) + r.val, by have := r.isLt; omega⟩ : Fin 2048) k : S2048x512.Idx) := by
  obtain ⟨-, -, -, -, -, -, e0, e1⟩ := idx_facts t
  show Y _ = Y _
  congr 1
  funext a; apply Fin.ext
  match a with
  | ⟨0, _⟩ => show k0_off1 (grid0.coords t) (0 : Fin 2) + 1 * r.val = 256 * (t.val % 8) + r.val; omega
  | ⟨1, _⟩ => show k0_off1 (grid0.coords t) (1 : Fin 2) + 1 * k.val = k.val; omega

end Attn.Ker

end
-- ==== Proof.KerValue.lean ====
/-
  The kernel's result array, as one function of its argument arrays.

  The grid has 32 points: point `t` works on batch `t / 8` and on the tile of rows `256 · (t % 8) …`. The body keeps the
  batch's normalised tokens in a scratch array: the first tile of a batch stores them, the other seven find them there.
  By induction over the points the scratch therefore holds, after every point, the normalised tokens of that point's
  batch; so every point's output block is the tile of the unit computed from them, which entry by entry is the unit's
  row `256 · (t % 8) + r` of batch `t / 8`. The 32 blocks tile the array, so the array ends as the whole-array function.
-/
import proofs.«145216_j2413771620560_2_alg».proof.Proof.Gen.KernelIdeal.Value
import proofs.«145216_j2413771620560_2_alg».proof.Proof.Spec
import proofs.«145216_j2413771620560_2_alg».proof.Proof.Pieces
import proofs.«145216_j2413771620560_2_alg».proof.Proof.PayRead
import proofs.«145216_j2413771620560_2_alg».proof.Proof.Blocks
import Idealize.ShloMosaic.Lib.Pipeline.Value
import Idealize.ShloMosaic.Lib.ValueIdx

set_option maxRecDepth 16384

noncomputable section

namespace Attn.Ker

open Cert.KernelIdeal Cert.KernelIdeal.Gen Idealize.ShloMosaic Idealize.ShloMosaic.TcCoe Idealize.SL.Sem
open Idealize.ShloMosaic.ValueIdx Attn
open Idealize.ShloMosaic.Pipeline (Dat)

variable (m : (ℓ : Loc nD τ sig) → Buf (Elt Ideal) ℓ) (ρ : Dev nD → PrngReg)

/-- The point's batch: `t / 8` of the 32 points. -/
abbrev batchOf (t : Fin cfg0.N) : Fin 4 := ⟨t.val / 8, by have := lt_of_lt_of_eq t.isLt (show cfg0.N = 32 from N_0); omega⟩

/-- The row of the array that row `r` of the point's tile is: `256 · (t % 8) + r`. -/
abbrev rowOf (t : Fin cfg0.N) (r : Fin 256) : Fin 2048 := ⟨256 * (t.val % 8) + r.val, by have := r.isLt; omega⟩

/-- The normalised tokens of batch `p`, as the scratch array holds them. -/
def tokens (c : Dev nD) (p : Fin 4) : Vec Ideal S2048x512 .bf16 :=
  fun j => ln1 c512 cEps (vec (m ((c : Thread nD τ).loc main_arg1))) (vec (m ((c : Thread nD τ).loc main_arg2)))
    (batch (m ((c : Thread nD τ).loc main_arg0)) p (j 0)) (j 1)

/-- What the body stores to the scratch at the first tile of a batch is that batch's normalised tokens. -/
theorem pay2_iblk (c : Dev nD) (t : Fin cfg0.N) :
    k0_pay2 (iblk m c 0 t) (iblk m c 1 t) (iblk m c 2 t) = tokens m c (batchOf t) := by
  funext j
  obtain ⟨n, d, rfl⟩ : ∃ (n : Fin 2048) (d : Fin 512), j = ix2 n d := ⟨j 0, j 1, eq_ix2 j⟩
  rw [pay2_apply]
  simp only [iblk0_apply, iblk1_apply, iblk2_apply]
  rfl

/-- After every point the scratch holds the normalised tokens of the point's batch: stored at the batch's first tile,
    kept by the other seven. -/
theorem scratch_eq (c : Dev nD) : ∀ (n : ℕ) (h : n < cfg0.N), (outsAt0 m c n h).2 = tokens m c (batchOf ⟨n, h⟩)
  | 0, h => by
    rw [outsAt0_A m c ⟨0, h⟩ rfl]
    dsimp only
    rw [scratch_A, pay2_iblk]
  | n + 1, h => by
    by_cases h0 : (n + 1) % 8 = 0
    · rw [outsAt0_A m c ⟨n + 1, h⟩ h0]
      dsimp only
      rw [scratch_A, pay2_iblk]
    · rw [outsAt0_B m c ⟨n + 1, h⟩ h0]
      dsimp only
      unfold sout0_B_0
      have ih := scratch_eq c n (Nat.lt_of_succ_lt h)
      have e : batchOf (⟨n, Nat.lt_of_succ_lt h⟩ : Fin cfg0.N) = batchOf (⟨n + 1, h⟩ : Fin cfg0.N) := Fin.ext (by
        show n / 8 = (n + 1) / 8
        omega)
      rw [← e]
      exact ih

/-- The output block after point `t` is the tile computed from the normalised tokens of the point's batch. -/
theorem out_eq (c : Dev nD) (t : Fin cfg0.N) :
    (outsAt0 m c t.val t.isLt).1
      = tileOf (grid0.coords t) (tokens m c (batchOf t)) (iblk m c 1 t) (iblk m c 2 t) (iblk m c 3 t) (iblk m c 4 t) := by
  by_cases h0 : t.val % 8 = 0
  · rw [outsAt0_A m c t h0]
    dsimp only
    rw [out_A, pay2_iblk]
  · rw [outsAt0_B m c t h0]
    dsimp only
    rw [out_B]
    have hN : t.val < 32 := lt_of_lt_of_eq t.isLt (show cfg0.N = 32 from N_0)
    have hlt : t.val - 1 < cfg0.N := Nat.lt_of_le_of_lt (Nat.sub_le _ _) t.isLt
    have ih := scratch_eq m c (t.val - 1) hlt
    have e : batchOf (⟨t.val - 1, hlt⟩ : Fin cfg0.N) = batchOf t := Fin.ext (by
      show (t.val - 1) / 8 = t.val / 8
      omega)
    rw [ih, e]

/-- The tile at an entry: the unit's row `256 · (t % 8) + r` of the batch, at `d`. -/
theorem tile_apply (c : Dev nD) (t : Fin cfg0.N) (u : Fin 1) (r : Fin 256) (d : Fin 512) :
    tileOf (grid0.coords t) (tokens m c (batchOf t)) (iblk m c 1 t) (iblk m c 2 t) (iblk m c 3 t) (iblk m c 4 t) (ix3 u r d)
      = attn1 c512 c2048 cEps (batch (m ((c : Thread nD τ).loc main_arg0)) (batchOf t)) (vec (m ((c : Thread nD τ).loc main_arg1)))
          (vec (m ((c : Thread nD τ).loc main_arg2))) (vec (m ((c : Thread nD τ).loc main_arg3))) (vec (m ((c : Thread nD τ).loc main_arg4)))
          (rowOf t r) d := by
  show k0_pay1 (k0_pay3 (qrows (grid0.coords t) (tokens m c (batchOf t))) (tokens m c (batchOf t)) (iblk m c 3 t) (iblk m c 4 t))
    (iblk m c 1 t) (iblk m c 2 t) (ix3 u r d) = _
  rw [pay1_apply]
  simp only [pay3_apply, iblk1_apply, iblk2_apply, iblk3_apply, iblk4_apply]
  have hq : (fun m' : Fin 2048 => ∑ k : Fin 512, qrows (grid0.coords t) (tokens m c (batchOf t)) (ix2 r k) * tokens m c (batchOf t) (ix2 m' k))
      = score (fun n => ln1 c512 cEps (vec (m ((c : Thread nD τ).loc main_arg1))) (vec (m ((c : Thread nD τ).loc main_arg2)))
          (batch (m ((c : Thread nD τ).loc main_arg0)) (batchOf t) n)) (rowOf t r) := by
    funext m'
    unfold score
    refine Finset.sum_congr rfl fun k _ => ?_
    rw [qrows_apply]
    rfl
  rw [hq]
  rfl

/-- The kernel's result array. -/
abbrev result (c : Dev nD) : A3.Idx → EReal :=
  G1 (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of the result array. -/
theorem flushed_eq (c : Dev nD) (t : Fin cfg0.N) :
    (dats m 0 c).flushed 5 t = ((cfg0.win 5).blk t).view.read (Elt Ideal) (result m c) := by
  rw [Cert.KernelIdeal.Value.flushed5, out_eq]
  funext y
  show tileOf (grid0.coords t) (tokens m c (batchOf t)) (iblk m c 1 t) (iblk m c 2 t) (iblk m c 3 t) (iblk m c 4 t) y
    = result m c (((cfg0.win 5).blk t).view.emb y)
  obtain ⟨u, r, d, rfl⟩ : ∃ (u : Fin 1) (r : Fin 256) (d : Fin 512), y = (ix3 u r d : S1x256x512.Idx) :=
    ⟨y 0, y 1, y 2, eq_ix3 (n0 := 1) (n1 := 256) (n2 := 512) y⟩
  rw [tile_apply, emb5_apply]
  rfl

/-- The blocks cover the array, so it ends holding the result. -/
theorem final (c : Dev nD) : (dats m 0 c).arrAt 5 cfg0.N = result m c :=
  (dats m 0 c).arrAt_eq_of_cover 5 (result m c) (fun t _ => flushed_eq m c t) cover5

/-- The kernel's run: the result array at the one-pass function of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Attn.Ker

end
-- ==== Proof.RefRead.lean ====
/-
  The reference program's result, read index by index. Per batch `p` of the tokens `x : [4, 2048, 512]` the program
  normalises each token over its 512 entries (two-pass: mean, centred squares, their mean, the offset, the reciprocal
  square root, weight and bias), takes all pairwise inner products of the normalised tokens, normalises each row of
  2048 scores the same way, multiplies the normalised scores back into the normalised tokens, and normalises the rows
  of the product once more. Each host operation is read at an index by its coordinates; the normalisation is read once,
  at any row length; each named intermediate term of the program's run is then the corresponding mathematical stage,
  and the result term is `Attn.G2` of the argument arrays.
-/
import proofs.«145216_j2413771620560_2_alg».proof.Proof.Spec
import proofs.«145216_j2413771620560_2_alg».proof.Proof.Gen.ReferenceIdeal.Run
import Idealize.ShloMosaic.Lib.IdealHost
import Idealize.ShloMosaic.Lib.Pipeline.Value

noncomputable section

namespace Attn.Ref

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## The host operations read at an index -/

/-- A sum over the last axis of a `[4, 2048, K]` array, from the zero literal: the sum over the last coordinate. -/
theorem reduce_last_apply {K : ℕ} (X : FVec Ideal ⟨3, ![4, 2048, K]⟩ .f32)
    (h' : (⟨3, ![4, 2048, K]⟩ : Shape).ReducesTo [2] ⟨2, ![4, 2048]⟩)
    (h : (⟨3, ![4, 2048, K]⟩ : Shape).Reduces [2] ⟨2, ![4, 2048]⟩) (hS : 0 < S_.numel)
    (p : Fin 4) (n : Fin 2048) :
    Host.reduceAdd X (constant (F := Ideal) S_ .f32 0x00000000#32) h' hS (ix2 p n) = ∑ k : Fin K, X (ix3 p n k) := by
  rw [hostReduceAdd_apply, Ideal.hostReduceAdd_single h' h, constant_apply, Ideal.ofBits_zero_f32, zero_add]
  refine Finset.sum_congr rfl fun k _ => congrArg X ?_
  funext a
  match a with
  | ⟨0, _⟩ => exact Fin.ext rfl
  | ⟨1, _⟩ => exact Fin.ext rfl
  | ⟨2, _⟩ => exact Fin.ext rfl

/-- A `[4, 2048]` array as a `[4, 2048, 1]` column of rows. -/
theorem bcast_keep_apply {α : Type} (x : (⟨2, ![4, 2048]⟩ : Shape).Idx → α)
    (h : (⟨2, ![4, 2048]⟩ : Shape).BroadcastsInDim ⟨3, ![4, 2048, 1]⟩ ![0, 1]) (p : Fin 4) (n : Fin 2048) (z : Fin 1) :
    broadcastInDim ⟨3, ![4, 2048, 1]⟩ ![0, 1] h x (ix3 p n z) = x (ix2 p n) := by
  refine broadcastInDim_apply _ h x _ (ix2 p n) fun a => ?_
  match a with
  | ⟨0, _⟩ => rfl
  | ⟨1, _⟩ => rfl

/-- A scalar literal broadcast to any shape reads the literal's value. -/
theorem bcast_const_apply {T : Shape} (h : S_.BroadcastsInDim T ![]) (b : BitVec 32) (j : T.Idx) :
    broadcastInDim T ![] h (constant (F := Ideal) S_ .f32 b) j = Ideal.ofBits .f32 b := by
  rw [broadcastInDim_scalar_apply]; rfl

/-- A `[4, 2048, 1]` column broadcast along the last axis reads the row's one entry. -/
theorem bcast_row_apply {α : Type} {K : ℕ} (x : (⟨3, ![4, 2048, 1]⟩ : Shape).Idx → α)
    (h : (⟨3, ![4, 2048, 1]⟩ : Shape).BroadcastsInDim ⟨3, ![4, 2048, K]⟩ ![0, 1, 2]) (p : Fin 4) (n : Fin 2048) (k : Fin K) :
    broadcastInDim ⟨3, ![4, 2048, K]⟩ ![0, 1, 2] h x (ix3 p n k) = x (ix3 p n (0 : Fin 1)) := by
  refine broadcastInDim_apply _ h x _ (ix3 p n (0 : Fin 1)) fun a => ?_
  match a with
  | ⟨0, _⟩ => rfl
  | ⟨1, _⟩ => rfl
  | ⟨2, _⟩ => rfl

/-- A `[K]` vector placed on the last axis of `[1, 1, K]` and broadcast to `[4, 2048, K]` reads the vector at the
    last coordinate. -/
theorem bcast_vec_apply {α : Type} {K : ℕ} (hK : K ≠ 1) (x : (⟨1, ![K]⟩ : Shape).Idx → α)
    (h1 : (⟨1, ![K]⟩ : Shape).BroadcastsInDim ⟨3, ![1, 1, K]⟩ ![2])
    (h2 : (⟨3, ![1, 1, K]⟩ : Shape).BroadcastsInDim ⟨3, ![4, 2048, K]⟩ ![0, 1, 2]) (p : Fin 4) (n : Fin 2048) (k : Fin K) :
    broadcastInDim ⟨3, ![4, 2048, K]⟩ ![0, 1, 2] h2 (broadcastInDim ⟨3, ![1, 1, K]⟩ ![2] h1 x) (ix3 p n k) = x (ix1 k) := by
  rw [broadcastInDim_apply _ h2 _ _ (ix3 (0 : Fin 1) (0 : Fin 1) k) fun a => by
    match a with
    | ⟨0, _⟩ => rfl
    | ⟨1, _⟩ => rfl
    | ⟨2, _⟩ => exact (if_neg hK).symm]
  refine broadcastInDim_apply _ h1 x _ (ix1 k) fun a => ?_
  match a with
  | ⟨0, _⟩ => exact (if_neg hK).symm

/-- The host's quotient at an index. -/
theorem divf_apply' {s : Shape} (a b : FVec Ideal s .f32) (i : s.Idx) : Host.divf a b i = Ideal.div (a i) (b i) := rfl

/-- The host's reciprocal square root at an index. -/
theorem rsqrt_apply' {s : Shape} (a : FVec Ideal s .f32) (i : s.Idx) : Host.rsqrt a i = Ideal.rsqrt (a i) := rfl

/-! The two batched products. Each operand index of a product is named coordinate by coordinate: a batch or free axis
    reads the result index, the contracted axis the contraction index's one coordinate. -/

section Dot1
/-- The first product's dimension numbers. -/
abbrev D1 : DotDims S4x2048x512 S4x2048x512 S4x2048x2048 := dot_S4x2048x512_S4x2048x512_S4x2048x2048_2_2_1_1_0_0

theorem lhs1_0 (i : S4x2048x2048.Idx) (q : D1.contr.Idx) : (D1.lhsIdx i q 0).val = (i 0).val := by
  unfold DotDims.lhsIdx
  rw [dif_pos (show (0 : Fin S4x2048x512.rank) ∈ D1.lhsBatch by decide)]
  rfl
theorem lhs1_1 (i : S4x2048x2048.Idx) (q : D1.contr.Idx) : (D1.lhsIdx i q 1).val = (i 1).val := by
  unfold DotDims.lhsIdx
  rw [dif_neg (show ¬(1 : Fin S4x2048x512.rank) ∈ D1.lhsBatch by decide),
    dif_pos (show (1 : Fin S4x2048x512.rank) ∈ D1.lhsNonContracting by decide)]
  rfl
theorem lhs1_2 (i : S4x2048x2048.Idx) (q : D1.contr.Idx) : (D1.lhsIdx i q 2).val = (q ⟨0, by decide⟩).val :=
  D1.lhsIdx_val_of_single rfl i q
theorem rhs1_0 (i : S4x2048x2048.Idx) (q : D1.contr.Idx) : (D1.rhsIdx i q 0).val = (i 0).val := by
  unfold DotDims.rhsIdx
  rw [dif_pos (show (0 : Fin S4x2048x512.rank) ∈ D1.rhsBatch by decide)]
  rfl
theorem rhs1_1 (i : S4x2048x2048.Idx) (q : D1.contr.Idx) : (D1.rhsIdx i q 1).val = (i 2).val := by
  unfold DotDims.rhsIdx
  rw [dif_neg (show ¬(1 : Fin S4x2048x512.rank) ∈ D1.rhsBatch by decide),
    dif_pos (show (1 : Fin S4x2048x512.rank) ∈ D1.rhsNonContracting by decide)]
  rfl
theorem rhs1_2 (i : S4x2048x2048.Idx) (q : D1.contr.Idx) : (D1.rhsIdx i q 2).val = (q ⟨0, by decide⟩).val :=
  D1.rhsIdx_val_of_single rfl i q

/-- The product contracting the last axis of both operands: all pairwise inner products of the rows of one batch. -/
theorem dot1_apply (A B : FVec Ideal S4x2048x512 .f32) (p : Fin 4) (n m : Fin 2048) :
    Host.dotGeneral D1 none A B (ix3 p n m) = ∑ k : Fin 512, A (ix3 p n k) * B (ix3 p m k) := by
  show FloatOps.dotGeneral D1 none _ A B (ix3 p n m) = _
  rw [Ideal.dotGeneral_apply, ← Equiv.sum_comp (contrEquiv1 D1 512 rfl rfl).symm]
  refine Finset.sum_congr rfl fun k _ => ?_
  have hk := contrEquiv1_symm_val D1 512 rfl rfl k
  have el : D1.lhsIdx (ix3 p n m) ((contrEquiv1 D1 512 rfl rfl).symm k) = ix3 p n k := funext fun a => Fin.ext (by
    match a with
    | ⟨0, _⟩ => exact lhs1_0 _ _
    | ⟨1, _⟩ => exact lhs1_1 _ _
    | ⟨2, _⟩ => exact (lhs1_2 _ _).trans hk)
  have er : D1.rhsIdx (ix3 p n m) ((contrEquiv1 D1 512 rfl rfl).symm k) = ix3 p m k := funext fun a => Fin.ext (by
    match a with
    | ⟨0, _⟩ => exact rhs1_0 _ _
    | ⟨1, _⟩ => exact rhs1_1 _ _
    | ⟨2, _⟩ => exact (rhs1_2 _ _).trans hk)
  rw [el, er]

end Dot1

section Dot2
/-- The second product's dimension numbers. -/
abbrev D2 : DotDims S4x2048x2048 S4x2048x512 S4x2048x512 := dot_S4x2048x2048_S4x2048x512_S4x2048x512_2_1_1_2_0_0

theorem lhs2_0 (i : S4x2048x512.Idx) (q : D2.contr.Idx) : (D2.lhsIdx i q 0).val = (i 0).val := by
  unfold DotDims.lhsIdx
  rw [dif_pos (show (0 : Fin S4x2048x2048.rank) ∈ D2.lhsBatch by decide)]
  rfl
theorem lhs2_1 (i : S4x2048x512.Idx) (q : D2.contr.Idx) : (D2.lhsIdx i q 1).val = (i 1).val := by
  unfold DotDims.lhsIdx
  rw [dif_neg (show ¬(1 : Fin S4x2048x2048.rank) ∈ D2.lhsBatch by decide),
    dif_pos (show (1 : Fin S4x2048x2048.rank) ∈ D2.lhsNonContracting by decide)]
  rfl
theorem lhs2_2 (i : S4x2048x512.Idx) (q : D2.contr.Idx) : (D2.lhsIdx i q 2).val = (q ⟨0, by decide⟩).val :=
  D2.lhsIdx_val_of_single rfl i q
theorem rhs2_0 (i : S4x2048x512.Idx) (q : D2.contr.Idx) : (D2.rhsIdx i q 0).val = (i 0).val := by
  unfold DotDims.rhsIdx
  rw [dif_pos (show (0 : Fin S4x2048x512.rank) ∈ D2.rhsBatch by decide)]
  rfl
theorem rhs2_1 (i : S4x2048x512.Idx) (q : D2.contr.Idx) : (D2.rhsIdx i q 1).val = (q ⟨0, by decide⟩).val :=
  D2.rhsIdx_val_of_single rfl i q
theorem rhs2_2 (i : S4x2048x512.Idx) (q : D2.contr.Idx) : (D2.rhsIdx i q 2).val = (i 2).val := by
  unfold DotDims.rhsIdx
  rw [dif_neg (show ¬(2 : Fin S4x2048x512.rank) ∈ D2.rhsBatch by decide),
    dif_pos (show (2 : Fin S4x2048x512.rank) ∈ D2.rhsNonContracting by decide)]
  rfl

/-- The product contracting the last axis of the left operand with the middle axis of the right one: a matrix of row
    weights times the rows of one batch. -/
theorem dot2_apply (A : FVec Ideal S4x2048x2048 .f32) (B : FVec Ideal S4x2048x512 .f32) (p : Fin 4) (n : Fin 2048) (d : Fin 512) :
    Host.dotGeneral D2 none A B (ix3 p n d) = ∑ m : Fin 2048, A (ix3 p n m) * B (ix3 p m d) := by
  show FloatOps.dotGeneral D2 none _ A B (ix3 p n d) = _
  rw [Ideal.dotGeneral_apply, ← Equiv.sum_comp (contrEquiv1 D2 2048 rfl rfl).symm]
  refine Finset.sum_congr rfl fun k _ => ?_
  have hk := contrEquiv1_symm_val D2 2048 rfl rfl k
  have el : D2.lhsIdx (ix3 p n d) ((contrEquiv1 D2 2048 rfl rfl).symm k) = ix3 p n k := funext fun a => Fin.ext (by
    match a with
    | ⟨0, _⟩ => exact lhs2_0 _ _
    | ⟨1, _⟩ => exact lhs2_1 _ _
    | ⟨2, _⟩ => exact (lhs2_2 _ _).trans hk)
  have er : D2.rhsIdx (ix3 p n d) ((contrEquiv1 D2 2048 rfl rfl).symm k) = ix3 p k d := funext fun a => Fin.ext (by
    match a with
    | ⟨0, _⟩ => exact rhs2_0 _ _
    | ⟨1, _⟩ => exact (rhs2_1 _ _).trans hk
    | ⟨2, _⟩ => exact rhs2_2 _ _)
  rw [el, er]

end Dot2

/-! ## The normalisation's pieces, at any last-axis length

Stated over a row `f` the array `Y` is known to hold at batch `p`, row `n` (`hY`), so that a later stage reads an earlier
one in its mathematical form. -/

/-- The mean over the last axis, kept as a column: the row's sum divided by the literal. -/
theorem mean_apply {K : ℕ} (c : BitVec 32) (Y : FVec Ideal ⟨3, ![4, 2048, K]⟩ .f32)
    (h' : (⟨3, ![4, 2048, K]⟩ : Shape).ReducesTo [2] ⟨2, ![4, 2048]⟩)
    (h : (⟨3, ![4, 2048, K]⟩ : Shape).Reduces [2] ⟨2, ![4, 2048]⟩) (p : Fin 4) (n : Fin 2048) (z : Fin 1)
    (f : Fin K → EReal) (hY : ∀ j, Y (ix3 p n j) = f j) :
    Host.divf (broadcastInDim S4x2048x1 ![0, 1] bcast_S4x2048_S4x2048x1_0_1
        (Host.reduceAdd Y (constant (F := Ideal) S_ .f32 0x00000000#32) h' h_S_))
      (broadcastInDim S4x2048x1 ![] bcast_S_S4x2048x1 (constant (F := Ideal) S_ .f32 c)) (ix3 p n z)
      = mean (Ideal.ofBits .f32 c) f := by
  rw [divf_apply', bcast_keep_apply, reduce_last_apply Y h' h, bcast_const_apply]
  simp only [hY]
  rfl

/-- The two-pass normalisation of the rows of `Y`, as the program spells it from the mean column `M` and the centred
    array `C`, read at an index: `ln2` of the row. -/
theorem ln_apply {K : ℕ} (hK : K ≠ 1) (c : BitVec 32) (Y C : FVec Ideal ⟨3, ![4, 2048, K]⟩ .f32) (M : FVec Ideal S4x2048x1 .f32)
    (W B : FVec Ideal ⟨1, ![K]⟩ .f32)
    (h' : (⟨3, ![4, 2048, K]⟩ : Shape).ReducesTo [2] ⟨2, ![4, 2048]⟩)
    (h : (⟨3, ![4, 2048, K]⟩ : Shape).Reduces [2] ⟨2, ![4, 2048]⟩)
    (hb : S4x2048x1.BroadcastsInDim ⟨3, ![4, 2048, K]⟩ ![0, 1, 2])
    (h1 : (⟨1, ![K]⟩ : Shape).BroadcastsInDim ⟨3, ![1, 1, K]⟩ ![2])
    (h2 : (⟨3, ![1, 1, K]⟩ : Shape).BroadcastsInDim ⟨3, ![4, 2048, K]⟩ ![0, 1, 2])
    (p : Fin 4) (n : Fin 2048) (k : Fin K) (f : Fin K → EReal)
    (hY : ∀ j, Y (ix3 p n j) = f j)
    (hM : M (ix3 p n (0 : Fin 1)) = mean (Ideal.ofBits .f32 c) f)
    (hC : ∀ j, C (ix3 p n j) = f j - mean (Ideal.ofBits .f32 c) f) :
    addf (mulf (mulf (subf Y (broadcastInDim ⟨3, ![4, 2048, K]⟩ ![0, 1, 2] hb M))
        (broadcastInDim ⟨3, ![4, 2048, K]⟩ ![0, 1, 2] hb (Host.rsqrt (addf
          (Host.divf (broadcastInDim S4x2048x1 ![0, 1] bcast_S4x2048_S4x2048x1_0_1
              (Host.reduceAdd (mulf C C) (constant (F := Ideal) S_ .f32 0x00000000#32) h' h_S_))
            (broadcastInDim S4x2048x1 ![] bcast_S_S4x2048x1 (constant (F := Ideal) S_ .f32 c)))
          (broadcastInDim S4x2048x1 ![] bcast_S_S4x2048x1 (constant (F := Ideal) S_ .f32 0x3727C5AC#32))))))
        (broadcastInDim ⟨3, ![4, 2048, K]⟩ ![0, 1, 2] h2 (broadcastInDim ⟨3, ![1, 1, K]⟩ ![2] h1 W)))
      (broadcastInDim ⟨3, ![4, 2048, K]⟩ ![0, 1, 2] h2 (broadcastInDim ⟨3, ![1, 1, K]⟩ ![2] h1 B)) (ix3 p n k)
      = ln2 (Ideal.ofBits .f32 c) cEps (vec W) (vec B) f k := by
  rw [addf_apply, mulf_apply, mulf_apply, subf_apply, bcast_row_apply M, bcast_row_apply (Host.rsqrt _),
    bcast_vec_apply hK W, bcast_vec_apply hK B, rsqrt_apply', addf_apply,
    mean_apply c (mulf C C) h' h p n 0 (fun j => (f j - mean (Ideal.ofBits .f32 c) f) * (f j - mean (Ideal.ofBits .f32 c) f))
      (fun j => by rw [mulf_apply, hC]),
    bcast_const_apply, hM, hY]
  rfl

/-! ## The program's named terms, read at an index -/

section Stages
variable (V0 : Valuation τ sig (Elt Ideal))

/-- The five argument arrays. -/
abbrev aX : A3.Idx → EReal := V0 (Proc.devRef .tc main_arg0)
abbrev aW1 : A512.Idx → EReal := V0 (Proc.devRef .tc main_arg1)
abbrev aW2 : A512.Idx → EReal := V0 (Proc.devRef .tc main_arg2)
abbrev aW3 : A2048.Idx → EReal := V0 (Proc.devRef .tc main_arg3)
abbrev aW4 : A2048.Idx → EReal := V0 (Proc.devRef .tc main_arg4)

/-- The normalised tokens of batch `p`. -/
def xn (p : Fin 4) : Fin 2048 → Fin 512 → EReal :=
  fun n => ln2 c512 cEps (vec (aW1 V0)) (vec (aW2 V0)) (batch (aX V0) p n)
/-- The normalised score rows of batch `p`. -/
def att (p : Fin 4) : Fin 2048 → Fin 2048 → EReal :=
  fun n => ln2 c2048 cEps (vec (aW3 V0)) (vec (aW4 V0)) (score (xn V0 p) n)
/-- The normalised scores times the normalised tokens, batch `p`. -/
def out (p : Fin 4) : Fin 2048 → Fin 512 → EReal := mix (att V0 p) (xn V0 p)

/-- The token mean. -/
theorem v3_apply (p : Fin 4) (n : Fin 2048) (z : Fin 1) :
    (res_main_v3 V0 : S4x2048x1.Idx → EReal) (ix3 p n z) = mean c512 (batch (aX V0) p n) := by
  unfold res_main_v3
  exact mean_apply _ _ _ (by decide) p n z (batch (aX V0) p n) (fun _ => rfl)

/-- The centred tokens. -/
theorem v5_apply (p : Fin 4) (n : Fin 2048) (d : Fin 512) :
    (res_main_v5 V0 : S4x2048x512.Idx → EReal) (ix3 p n d) = batch (aX V0) p n d - mean c512 (batch (aX V0) p n) := by
  unfold res_main_v5
  rw [subf_apply, bcast_row_apply, v3_apply]
  rfl

/-- The normalised tokens. -/
theorem v23_apply (p : Fin 4) (n : Fin 2048) (d : Fin 512) :
    (res_main_v23 V0 : S4x2048x512.Idx → EReal) (ix3 p n d) = xn V0 p n d := by
  unfold res_main_v23
  exact ln_apply (by decide) _ _ (res_main_v5 V0) (res_main_v3 V0) _ _ _ (by decide) _ _ _ p n d (batch (aX V0) p n)
    (fun _ => rfl) (v3_apply V0 p n 0) (v5_apply V0 p n)

/-- The scores. -/
theorem v24_apply (p : Fin 4) (n m : Fin 2048) :
    (res_main_v24 V0 : S4x2048x2048.Idx → EReal) (ix3 p n m) = score (xn V0 p) n m := by
  unfold res_main_v24
  rw [dot1_apply]
  unfold score
  show (_ : EReal) = _
  refine Finset.sum_congr rfl fun k _ => ?_
  rw [v23_apply, v23_apply]

/-- The score mean. -/
theorem v28_apply (p : Fin 4) (n : Fin 2048) (z : Fin 1) :
    (res_main_v28 V0 : S4x2048x1.Idx → EReal) (ix3 p n z) = mean c2048 (score (xn V0 p) n) := by
  unfold res_main_v28
  exact mean_apply _ _ _ (by decide) p n z (score (xn V0 p) n) (v24_apply V0 p n)

/-- The centred scores. -/
theorem v30_apply (p : Fin 4) (n m : Fin 2048) :
    (res_main_v30 V0 : S4x2048x2048.Idx → EReal) (ix3 p n m) = score (xn V0 p) n m - mean c2048 (score (xn V0 p) n) := by
  unfold res_main_v30
  rw [subf_apply, bcast_row_apply, v24_apply, v28_apply]

/-- The normalised scores times the normalised tokens. -/
theorem v49_apply (p : Fin 4) (n : Fin 2048) (d : Fin 512) :
    (res_main_v49 V0 : S4x2048x512.Idx → EReal) (ix3 p n d) = out V0 p n d := by
  unfold res_main_v49
  rw [dot2_apply]
  unfold out mix
  show (_ : EReal) = _
  refine Finset.sum_congr rfl fun m _ => ?_
  rw [v23_apply]
  refine congrArg (· * xn V0 p m d) ?_
  exact ln_apply (by decide) _ _ (res_main_v30 V0) (res_main_v28 V0) _ _ _ (by decide) _ _ _ p n m (score (xn V0 p) n)
    (v24_apply V0 p n) (v28_apply V0 p n 0) (v30_apply V0 p n)

/-- The mean of the product's rows. -/
theorem v53_apply (p : Fin 4) (n : Fin 2048) (z : Fin 1) :
    (res_main_v53 V0 : S4x2048x1.Idx → EReal) (ix3 p n z) = mean c512 (out V0 p n) := by
  unfold res_main_v53
  exact mean_apply _ _ _ (by decide) p n z (out V0 p n) (v49_apply V0 p n)

/-- The centred product. -/
theorem v55_apply (p : Fin 4) (n : Fin 2048) (d : Fin 512) :
    (res_main_v55 V0 : S4x2048x512.Idx → EReal) (ix3 p n d) = out V0 p n d - mean c512 (out V0 p n) := by
  unfold res_main_v55
  rw [subf_apply, bcast_row_apply, v49_apply, v53_apply]

end Stages

/-! ## The result -/

/-- The reference's result term is the two-pass unit of the argument arrays, at every index. -/
theorem result_eq (V0 : Valuation τ sig (Elt Ideal)) :
    (addf (mulf (mulf (subf (res_main_v49 V0) (broadcastInDim S4x2048x512 ![0, 1, 2] bcast_S4x2048x1_S4x2048x512_0_1_2 (res_main_v53 V0))) (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf (res_main_v55 V0) (res_main_v55 V0)) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x3727C5AC#32)))))) (broadcastInDim S4x2048x512 ![0, 1, 2] bcast_S1x1x512_S4x2048x512_0_1_2 (broadcastInDim S1x1x512 ![2] bcast_S512_S1x1x512_2 (V0 (Proc.devRef .tc main_arg1))))) (broadcastInDim S4x2048x512 ![0, 1, 2] bcast_S1x1x512_S4x2048x512_0_1_2 (broadcastInDim S1x1x512 ![2] bcast_S512_S1x1x512_2 (V0 (Proc.devRef .tc main_arg2)))) : Attn.A3.Idx → EReal)
      = Attn.G2 (V0 (Proc.devRef .tc main_arg0)) (V0 (Proc.devRef .tc main_arg1)) (V0 (Proc.devRef .tc main_arg2))
          (V0 (Proc.devRef .tc main_arg3)) (V0 (Proc.devRef .tc main_arg4)) := by
  funext i
  obtain ⟨p, n, d, rfl⟩ : ∃ p n d, i = ix3 p n d := ⟨i 0, i 1, i 2, eq_ix3 i⟩
  refine (ln_apply (by decide) _ _ (res_main_v55 V0) (res_main_v53 V0) _ _ _ (by decide) _ _ _ p n d (out V0 p n)
    (v49_apply V0 p n) (v53_apply V0 p n 0) (v55_apply V0 p n)).trans ?_
  rfl

end Attn.Ref

end
-- ==== Proof.LNAlgebra.lean ====
/-
  Two spellings of layer normalisation agree on rows of real numbers.

  Over the extended reals distributivity and cancellation fail at the infinities, so everything here first moves to
  the reals: a row of reals has a real mean, a real (and non-negative) variance, and a real normalised value; on the reals
  the identity  (1/n) ∑ (f - μ)² = (1/n) ∑ f² - μ²  (with μ = (1/n) ∑ f and n the number of entries) is plain algebra.
-/
import proofs.«145216_j2413771620560_2_alg».proof.Proof.Spec

noncomputable section

namespace Attn

open Idealize.ShloMosaic

/-! ## The literals -/

/-- The pattern `0x44000000` denotes the real `512`. -/
theorem c512_eq : c512 = ((512 : ℝ) : EReal) := by
  simp [c512, Ideal.ofBits, Ideal.ieee, -EReal.coe_mul]; norm_num

/-- The pattern `0x45000000` denotes the real `2048`. -/
theorem c2048_eq : c2048 = ((2048 : ℝ) : EReal) := by
  simp [c2048, Ideal.ofBits, Ideal.ieee, -EReal.coe_mul]; norm_num

/-- The variance offset denotes a positive real (sign bit clear, a normal exponent). -/
theorem cEps_pos : ∃ e : ℝ, 0 < e ∧ cEps = (e : EReal) := by
  refine ⟨(10995116 : ℝ) * (2 : ℝ) ^ (-40 : ℤ), by positivity, ?_⟩
  simp [cEps, Ideal.ofBits, Ideal.ieee, -EReal.coe_mul]

/-! ## Sums of reals -/

/-- A finite sum of reals, read in the extended reals, is the real sum. -/
theorem coe_sum {ι : Type} (s : Finset ι) (g : ι → ℝ) :
    (∑ j ∈ s, (g j : EReal)) = ((∑ j ∈ s, g j : ℝ) : EReal) := by
  classical
  induction s using Finset.induction_on with
  | empty => simp
  | insert a s ha ih => rw [Finset.sum_insert ha, Finset.sum_insert ha, ih, EReal.coe_add]

/-! ## One row, on the reals -/

section Row
variable {ι : Type} [Fintype ι]

/-- The mean of a real row. -/
def meanR (c : ℝ) (g : ι → ℝ) : ℝ := (∑ j, g j) * (1 / c)

/-- The variance of a real row: the mean of the squared deviations. -/
def varR (c : ℝ) (g : ι → ℝ) : ℝ := meanR c (fun j => (g j - meanR c g) * (g j - meanR c g))

/-- The normalised real row. -/
def lnR (c e : ℝ) (w b g : ι → ℝ) (k : ι) : ℝ :=
  (g k - meanR c g) * (Real.sqrt (varR c g + e))⁻¹ * w k + b k

/-- The mean of a row of reals is the real mean. -/
theorem mean_coe {c : ℝ} (hc : c ≠ 0) (g : ι → ℝ) :
    mean (c : EReal) (fun j => (g j : EReal)) = ((meanR c g : ℝ) : EReal) := by
  rw [mean, Ideal.div_coe hc, coe_sum, ← EReal.coe_mul, meanR]

/-- A mean of squares is non-negative. -/
theorem varR_nonneg {c : ℝ} (hc : 0 < c) (g : ι → ℝ) : 0 ≤ varR c g := by
  unfold varR
  rw [meanR]
  exact mul_nonneg (Finset.sum_nonneg (fun j _ => mul_self_nonneg _)) (by positivity)

/-- With `c` the number of entries, the mean of the squared deviations is the mean of the squares minus the squared mean:
    `∑ (g - μ)² = ∑ g² - 2 μ ∑ g + c μ²` and `∑ g = c μ`. -/
theorem varR_eq {c : ℝ} (hc : c = (Fintype.card ι : ℝ)) (hc0 : c ≠ 0) (g : ι → ℝ) :
    varR c g = meanR c (fun j => g j * g j) - meanR c g * meanR c g := by
  have hS : ∑ j, g j = meanR c g * c := by rw [meanR]; field_simp
  have key : ∀ μ : ℝ, ∑ j, g j = μ * c →
      (∑ j, (g j - μ) * (g j - μ)) * (1 / c) = (∑ j, g j * g j) * (1 / c) - μ * μ := by
    intro μ hS
    have : ∀ j, (g j - μ) * (g j - μ) = g j * g j - 2 * μ * g j + μ * μ := fun j => by ring
    simp only [this, Finset.sum_add_distrib, Finset.sum_sub_distrib, ← Finset.mul_sum, Finset.sum_const,
      Finset.card_univ, nsmul_eq_mul, ← hc, hS]
    field_simp
    ring
  exact key _ hS

/-- The two-pass normalisation of a real row is the real normalised row. -/
theorem ln2_coe {c e : ℝ} (hc : 0 < c) (he : 0 < e) (w b g : ι → ℝ) (k : ι) :
    ln2 (c : EReal) (e : EReal) (fun j => (w j : EReal)) (fun j => (b j : EReal)) (fun j => (g j : EReal)) k
      = ((lnR c e w b g k : ℝ) : EReal) := by
  have hpos : 0 < varR c g + e := by have := varR_nonneg hc g; linarith
  rw [varR] at hpos
  simp only [ln2, mean_coe hc.ne', ← EReal.coe_sub, ← EReal.coe_mul]
  rw [← EReal.coe_add, Ideal.rsqrt_coe,
    if_neg (not_lt.mpr hpos.le), if_neg hpos.ne', ← EReal.coe_mul, ← EReal.coe_mul, ← EReal.coe_add]
  rfl

/-- The one-pass normalisation of a real row, with the divisor the number of entries, is the same real row. -/
theorem ln1_coe {c e : ℝ} (hcard : c = (Fintype.card ι : ℝ)) (hc : 0 < c) (he : 0 < e) (w b g : ι → ℝ) (k : ι) :
    ln1 (c : EReal) (e : EReal) (fun j => (w j : EReal)) (fun j => (b j : EReal)) (fun j => (g j : EReal)) k
      = ((lnR c e w b g k : ℝ) : EReal) := by
  have hpos : 0 < varR c g + e := by have := varR_nonneg hc g; linarith
  have hv := varR_eq hcard hc.ne' g
  simp only [ln1, mean_coe hc.ne', ← EReal.coe_sub, ← EReal.coe_mul]
  rw [← hv, ← EReal.coe_add, Ideal.rsqrt_coe,
    if_neg (not_lt.mpr hpos.le), if_neg hpos.ne', ← EReal.coe_mul, ← EReal.coe_mul, ← EReal.coe_add]
  rw [lnR, mul_assoc]

end Row

/-! ## One row, on extended reals that are real -/

section RowE
variable {ι : Type} [Fintype ι]

/-- On a real row with real weights, the divisor the number of entries and a positive offset, both spellings return
    the same real. -/
theorem ln_both (n ε : EReal) (w b f : ι → EReal)
    (hn : n = ((Fintype.card ι : ℝ) : EReal)) (hc : 0 < Fintype.card ι)
    (e : ℝ) (he : 0 < e) (hε : ε = (e : EReal))
    (hf : ∀ k, ∃ r : ℝ, f k = r) (hw : ∀ k, ∃ r : ℝ, w k = r) (hb : ∀ k, ∃ r : ℝ, b k = r) (k : ι) :
    ∃ r : ℝ, ln1 n ε w b f k = r ∧ ln2 n ε w b f k = r := by
  choose g hg using hf
  choose w' hw' using hw
  choose b' hb' using hb
  obtain rfl : f = fun j => (g j : EReal) := funext hg
  obtain rfl : w = fun j => (w' j : EReal) := funext hw'
  obtain rfl : b = fun j => (b' j : EReal) := funext hb'
  subst hn hε
  have hc' : (0 : ℝ) < (Fintype.card ι : ℝ) := by exact_mod_cast hc
  exact ⟨_, ln1_coe rfl hc' he w' b' g k, ln2_coe hc' he w' b' g k⟩

/-- The two spellings agree on a real row. -/
theorem ln1_eq_ln2 (n ε : EReal) (w b f : ι → EReal)
    (hn : n = ((Fintype.card ι : ℝ) : EReal)) (hc : 0 < Fintype.card ι)
    (e : ℝ) (he : 0 < e) (hε : ε = (e : EReal))
    (hf : ∀ k, ∃ r : ℝ, f k = r) (hw : ∀ k, ∃ r : ℝ, w k = r) (hb : ∀ k, ∃ r : ℝ, b k = r) (k : ι) :
    ln1 n ε w b f k = ln2 n ε w b f k := by
  obtain ⟨r, h1, h2⟩ := ln_both n ε w b f hn hc e he hε hf hw hb k
  rw [h1, h2]

/-- The normalised row is real again. -/
theorem ln2_real (n ε : EReal) (w b f : ι → EReal)
    (hn : n = ((Fintype.card ι : ℝ) : EReal)) (hc : 0 < Fintype.card ι)
    (e : ℝ) (he : 0 < e) (hε : ε = (e : EReal))
    (hf : ∀ k, ∃ r : ℝ, f k = r) (hw : ∀ k, ∃ r : ℝ, w k = r) (hb : ∀ k, ∃ r : ℝ, b k = r) (k : ι) :
    ∃ r : ℝ, ln2 n ε w b f k = r := by
  obtain ⟨r, _, h2⟩ := ln_both n ε w b f hn hc e he hε hf hw hb k
  exact ⟨r, h2⟩

end RowE

/-! ## The unit -/

section Unit
variable {N D : ℕ}

/-- Inner products of real rows are real. -/
theorem score_real (y : Fin N → Fin D → EReal) (hy : ∀ n d, ∃ r : ℝ, y n d = r) (n m : Fin N) :
    ∃ r : ℝ, score y n m = r := by
  choose g hg using hy
  exact ⟨∑ d, g n d * g m d, by simp only [score, hg, ← EReal.coe_mul, coe_sum]⟩

/-- A real matrix times real rows is real. -/
theorem mix_real (a : Fin N → Fin N → EReal) (y : Fin N → Fin D → EReal)
    (ha : ∀ n m, ∃ r : ℝ, a n m = r) (hy : ∀ n d, ∃ r : ℝ, y n d = r) (n : Fin N) (d : Fin D) :
    ∃ r : ℝ, mix a y n d = r := by
  choose g hg using hy
  choose c hc using ha
  exact ⟨∑ m, c n m * g m d, by simp only [mix, hg, hc, ← EReal.coe_mul, coe_sum]⟩

/-- The unit in its two spellings agrees on real tokens with real weights: the tokens normalise to the same real rows,
    their scores are real, each row of scores normalises to the same real row, the product with the tokens is real,
    and the last normalisation agrees once more. -/
theorem attn1_eq_attn2 (hN : 0 < N) (hD : 0 < D) (nD nN ε : EReal)
    (hnD : nD = ((D : ℝ) : EReal)) (hnN : nN = ((N : ℝ) : EReal))
    (e : ℝ) (he : 0 < e) (hε : ε = (e : EReal))
    (x : Fin N → Fin D → EReal) (wt bt : Fin D → EReal) (ws bs : Fin N → EReal)
    (hx : ∀ n d, ∃ r : ℝ, x n d = r) (hwt : ∀ d, ∃ r : ℝ, wt d = r) (hbt : ∀ d, ∃ r : ℝ, bt d = r)
    (hws : ∀ n, ∃ r : ℝ, ws n = r) (hbs : ∀ n, ∃ r : ℝ, bs n = r) :
    attn1 nD nN ε x wt bt ws bs = attn2 nD nN ε x wt bt ws bs := by
  have hcD : 0 < Fintype.card (Fin D) := by rw [Fintype.card_fin]; exact hD
  have hcN : 0 < Fintype.card (Fin N) := by rw [Fintype.card_fin]; exact hN
  have hnD' : nD = ((Fintype.card (Fin D) : ℝ) : EReal) := by rw [Fintype.card_fin]; exact hnD
  have hnN' : nN = ((Fintype.card (Fin N) : ℝ) : EReal) := by rw [Fintype.card_fin]; exact hnN
  have hy : (fun n => ln1 nD ε wt bt (x n)) = (fun n => ln2 nD ε wt bt (x n)) := by
    funext n d
    exact ln1_eq_ln2 nD ε wt bt (x n) hnD' hcD e he hε (hx n) hwt hbt d
  have hyr : ∀ n d, ∃ r : ℝ, ln2 nD ε wt bt (x n) d = r := fun n d =>
    ln2_real nD ε wt bt (x n) hnD' hcD e he hε (hx n) hwt hbt d
  funext n d
  rw [attn1, attn2, hy, tile1, tile2]
  generalize hyd : (fun n => ln2 nD ε wt bt (x n)) = y
  replace hyr : ∀ n d, ∃ r : ℝ, y n d = r := fun n d => by rw [← hyd]; exact hyr n d
  have ha : (fun n' => ln1 nN ε ws bs (score y n')) = (fun n' => ln2 nN ε ws bs (score y n')) := by
    funext n' m
    exact ln1_eq_ln2 nN ε ws bs (score y n') hnN' hcN e he hε (score_real y hyr n') hws hbs m
  have har : ∀ n' m, ∃ r : ℝ, ln2 nN ε ws bs (score y n') m = r := fun n' m =>
    ln2_real nN ε ws bs (score y n') hnN' hcN e he hε (score_real y hyr n') hws hbs m
  rw [ha]
  exact ln1_eq_ln2 nD ε wt bt _ hnD' hcD e he hε (mix_real _ y har hyr n) hwt hbt d

end Unit

/-! ## The whole arrays -/

/-- The two whole-array functions agree on real arrays: entry by entry it is the unit on one batch, with the row
    lengths `512` and `2048` and a positive offset. -/
theorem G1_eq_G2 (X : A3.Idx → EReal) (W1 W2 : A512.Idx → EReal) (W3 W4 : A2048.Idx → EReal)
    (hX : ∀ i, ∃ r : ℝ, X i = r) (h1 : ∀ i, ∃ r : ℝ, W1 i = r) (h2 : ∀ i, ∃ r : ℝ, W2 i = r)
    (h3 : ∀ i, ∃ r : ℝ, W3 i = r) (h4 : ∀ i, ∃ r : ℝ, W4 i = r) :
    G1 X W1 W2 W3 W4 = G2 X W1 W2 W3 W4 := by
  obtain ⟨e, he, hε⟩ := cEps_pos
  have h512 : c512 = (((512 : ℕ) : ℝ) : EReal) := by rw [c512_eq, Nat.cast_ofNat]
  have h2048 : c2048 = (((2048 : ℕ) : ℝ) : EReal) := by rw [c2048_eq, Nat.cast_ofNat]
  funext i
  have h := attn1_eq_attn2 (N := 2048) (D := 512) (by norm_num) (by norm_num) c512 c2048 cEps h512 h2048 e he hε
    (batch X (i 0)) (vec W1) (vec W2) (vec W3) (vec W4)
    (fun n d => hX _) (fun d => h1 _) (fun d => h2 _) (fun n => h3 _) (fun n => h4 _)
  exact congrFun (congrFun h (i 1)) (i 2)

end Attn

end
-- ==== Proof.Finite.lean ====
/-
  The precondition read back: every entry of every float input is a real number.

  The precondition computes, for each of the five float inputs `a`, the conjunction over all indices of
  `|a i| < +∞` (an `and`-reduction of one-bit comparison words over every axis, from the word 1), and then the
  conjunction of the five one-bit results. When the result is the word 1, each of the five reductions is 1, so each
  comparison word is 1 at every index. On the extended reals `|x| = max x (-x)`, and `max x (-x) < ⊤` excludes both
  `x = ⊤` and `x = ⊥` (where `-x = ⊤`): what is left is a real number.
-/
import proofs.«145216_j2413771620560_2_alg».proof.Proof.Gen.Pre_finite_inputs
import Idealize.ShloMosaic.Lib.ReduceAll
import Idealize.ShloMosaic.Lib.ValueIdx
import Idealize.ShloMosaic.PureOps.Ideal.Laws

noncomputable section

namespace Attn.Fin5

open Idealize.ShloMosaic Idealize.ShloMosaic.ValueIdx

/-- The rank-0 shape has one index. -/
instance subsingleton_scalar_idx : Subsingleton (⟨0, ![]⟩ : Shape).Idx := ⟨fun a b => funext fun d => d.elim0⟩

/-- The bit pattern `0x7F800000` is `+∞`. -/
theorem inf_bits : Ideal.ofBits .f32 0x7F800000#32 = ⊤ := by simp [Ideal.ofBits, Ideal.ieee]

/-- An extended real whose absolute value `max x (-x)` compares below `+∞` is a real number. -/
theorem real_of_abs_lt_top (x : EReal) (h : Ideal.cmp .olt (max x (-x)) ⊤ = 1#1) : ∃ r : ℝ, x = r := by
  have hlt : max x (-x) < ⊤ := by
    by_contra hn
    simp [Ideal.cmp, hn] at h
  induction x using EReal.rec with
  | bot => simp at hlt
  | top => simp at hlt
  | coe r => exact ⟨r, rfl⟩

/-- One input: when the `and`-reduction over all axes of the words `|a i| < +∞` is 1, every entry of `a` is real. -/
theorem all_real {s : Shape} {axes : List (Fin s.rank)} (a : FVec Ideal s .f32)
    (dims : Fin (⟨0, ![]⟩ : Shape).rank → Fin s.rank) (hb : (⟨0, ![]⟩ : Shape).BroadcastsInDim s dims)
    (hr : s.ReducesTo axes ⟨0, ![]⟩) (hu : 0 < (⟨0, ![]⟩ : Shape).numel)
    (e : Host.reduce IntOp.andi
        (cmpf .olt (Host.absf a) (broadcastInDim s dims hb (constant ⟨0, ![]⟩ .f32 0x7F800000#32)))
        (constantI ⟨0, ![]⟩ 1 1#1) hr hu ix0 = 1#1) (i : s.Idx) : ∃ r : ℝ, a i = r := by
  have hi := Host.reduce_andi_all _ _ hr hu ix0 e i
  refine real_of_abs_lt_top (a i) ?_
  rw [← inf_bits]
  exact hi

theorem real_of_pre [Cert.Pre_finite_inputs.Facts]
    (a0 : FVec Ideal Cert.Pre_finite_inputs.S4x2048x512 .f32)
    (a1 a2 : FVec Ideal Cert.Pre_finite_inputs.S512 .f32)
    (a3 a4 : FVec Ideal Cert.Pre_finite_inputs.S2048 .f32)
    (h : Cert.Pre_finite_inputs.fn (F := Ideal) a0 a1 a2 a3 a4 = (fun _ => 1#1)) :
    (∀ i, ∃ r : ℝ, a0 i = (r : EReal)) ∧ (∀ i, ∃ r : ℝ, a1 i = r) ∧ (∀ i, ∃ r : ℝ, a2 i = r) ∧
      (∀ i, ∃ r : ℝ, a3 i = r) ∧ (∀ i, ∃ r : ℝ, a4 i = r) := by
  have h0 := congrFun h ix0
  dsimp only [Cert.Pre_finite_inputs.fn, Cert.Pre_finite_inputs.fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ _ e0, all_real a1 _ _ _ _ e1, all_real a2 _ _ _ _ e2, all_real a3 _ _ _ _ e3,
    all_real a4 _ _ _ _ e4⟩

end Attn.Fin5

end
-- ==== Proof.lean ====
/-
  A fused attention unit against its plain reference, equal as extended reals.

  Both programs take a batch of token rows `x : [4, 2048, 512]` with a token weight and bias of length 512 and a score
  weight and bias of length 2048, and compute, batch by batch: normalise every token row (mean, variance, offset,
  reciprocal square root, weight, bias); take the inner product of every pair of normalised rows, a 2048 × 2048 matrix
  of scores; normalise every row of scores; multiply that matrix by the normalised tokens; normalise every row of the
  product. The reference does each step on whole arrays, with the variance as the mean of squared deviations and the
  product grouped `((f - μ) · s) · w`. The kernel runs on a grid of 4 × 8 points — batch and tile of 256 query rows —,
  keeps the batch's normalised tokens in a scratch array that it fills at the batch's first tile, and takes each variance
  as the mean of squares minus the squared mean, with the product grouped `(f - μ) · (s · w)`.

  What is proved, and where:
  * `Spec`: the two spellings of a row normalisation, the unit built from either, and the two whole-array functions.
  * `LNAlgebra`: on real entries, with the divisor the row length and a positive offset, the two spellings agree and
    stay real; so the two whole-array functions agree on real arrays. This is where finiteness is needed: the variance
    identity `Σ(f - μ)²/n = Σf²/n - μ²` fails at an infinity.
  * `Finite`: the precondition makes every entry of every argument a real.
  * `RefRead`: the reference's result is the two-pass whole-array function of its arguments, entry by entry.
  * `LNBlock`, `MatRead`, `PayRead`, `Pieces`, `Blocks`, `KerValue`: the kernel's result array is the one-pass
    whole-array function — each run of the body leaves its pure terms; the scratch holds the batch's normalised tokens
    after every point of the batch (induction over the grid); every output tile is the unit's rows for that tile; the
    tiles cover the array.
  The three frames come from the generated frame runs and the reference's generated run; the idealisation rewrote
  nothing, so the fourth conjunct is trivial; the fifth joins the two runs through the agreement of the arguments.
-/
import proofs.«145216_j2413771620560_2_alg».proof.Defs
import proofs.«145216_j2413771620560_2_alg».proof.Proof.Gen.Kernel
import proofs.«145216_j2413771620560_2_alg».proof.Proof.Gen.Kernel.Skeleton
import proofs.«145216_j2413771620560_2_alg».proof.Proof.Gen.Kernel.Launch
import proofs.«145216_j2413771620560_2_alg».proof.Proof.Gen.Kernel.Points
import proofs.«145216_j2413771620560_2_alg».proof.Proof.Gen.Kernel.Frame
import proofs.«145216_j2413771620560_2_alg».proof.Proof.Gen.KernelIdeal
import proofs.«145216_j2413771620560_2_alg».proof.Proof.Gen.KernelIdeal.Skeleton
import proofs.«145216_j2413771620560_2_alg».proof.Proof.Gen.KernelIdeal.Launch
import proofs.«145216_j2413771620560_2_alg».proof.Proof.Gen.KernelIdeal.Points
import proofs.«145216_j2413771620560_2_alg».proof.Proof.Gen.KernelIdeal.Frame
import proofs.«145216_j2413771620560_2_alg».proof.Proof.Gen.ReferenceIdeal
import proofs.«145216_j2413771620560_2_alg».proof.Proof.Gen.Pre_finite_inputs
import proofs.«145216_j2413771620560_2_alg».proof.Proof.Gen.KernelIdeal.Value
import proofs.«145216_j2413771620560_2_alg».proof.Proof.Gen.ReferenceIdeal.Run
import proofs.«145216_j2413771620560_2_alg».proof.Proof.KerValue
import proofs.«145216_j2413771620560_2_alg».proof.Proof.RefRead
import proofs.«145216_j2413771620560_2_alg».proof.Proof.LNAlgebra
import proofs.«145216_j2413771620560_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the one-pass function of its arguments, the reference's at the two-pass function
    of arguments that agree; the precondition makes every entry real, and on real arrays the two functions are one. -/
theorem algebraic : Cert.algebraic_KernelIdeal_ReferenceIdeal := by
  intro m ρ m' ρ' hpre hagree
  refine ⟨_, Attn.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := Attn.Fin5.real_of_pre _ _ _ _ _ (hpre c)
  obtain ⟨a0, a1, a2, a3, a4⟩ := hagree c
  refine (Attn.Ref.result_eq (StableHlo.launchContents m' c)).trans ?_
  refine (congr (congr (congr (congr (congrArg Attn.G2 a0) a1) a2) a3) a4).trans ?_
  exact (Attn.G1_eq_G2 _ _ _ _ _ r0 r1 r2 r3 r4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
